-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024 : Shape := ⟨1, ![1024]⟩
abbrev S1x1x1024 : Shape := ⟨3, ![1, 1, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1x1x1024 : S_.BroadcastsInDim S1x1x1024 (![] : Fin 0 → Fin S1x1x1024.rank)
  reducesTo_S1x1x1024_S_d0_1_2 : S1x1x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part3 {F : FTy → Type} [FloatOps F] (main_arg11 : FVec F S1024x1024 .f32) (main_arg12 : FVec F S1024x1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  main_v63

def fn_part2 {F : FTy → Type} [FloatOps F] (main_arg7 : FVec F S1x1x1024 .f32) (main_arg8 : FVec F S1x1x1024 .f32) (main_arg9 : FVec F S1024x1024 .f32) (main_arg10 : FVec F S1024x1024 .f32) (main_arg11 : FVec F S1024x1024 .f32) (main_arg12 : FVec F S1024x1024 .f32) (main_v33 : IVec S_ 1) : IVec S_ 1 :=
  let main_v34 : FVec F S1x1x1024 .f32 := Host.absf main_arg7
  let main_cst_12 : FVec F S_ .f32 := constant S_ .f32 0x7F800000#32
  let main_v35 : FVec F S1x1x1024 .f32 := broadcastInDim S1x1x1024 ![] bcast_S_S1x1x1024 main_cst_12
  let main_v36 : IVec S1x1x1024 1 := cmpf .olt main_v34 main_v35
  let main_c_13 : IVec S_ 1 := constantI S_ 1 1#1
  let main_v37 : IVec S_ 1 := (fun x v => Host.reduce IntOp.andi x v reducesTo_S1x1x1024_S_d0_1_2 h_S_) main_v36 main_c_13
  let main_v38 : IVec S_ 1 := andi main_v33 main_v37
  let main_v39 : FVec F S1x1x1024 .f32 := Host.absf main_arg8
  let main_cst_14 : FVec F S_ .f32 := constant S_ .f32 0x7F800000#32
  let main_v40 : FVec F S1x1x1024 .f32 := broadcastInDim S1x1x1024 ![] bcast_S_S1x1x1024 main_cst_14
  let main_v41 : IVec S1x1x1024 1 := cmpf .olt main_v39 main_v40
  let main_c_15 : IVec S_ 1 := constantI S_ 1 1#1
  let main_v42 : IVec S_ 1 := (fun x v => Host.reduce IntOp.andi x v reducesTo_S1x1x1024_S_d0_1_2 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_v48 main_v49 main_v50

def fn_part1 {F : FTy → Type} [FloatOps F] (main_arg4 : FVec F S1024 .f32) (main_arg5 : FVec F S1024 .f32) (main_arg6 : FVec F S1x1x1024 .f32) (main_arg7 : FVec F S1x1x1024 .f32) (main_arg8 : FVec F S1x1x1024 .f32) (main_arg9 : FVec F S1024x1024 .f32) (main_arg10 : FVec F S1024x1024 .f32) (main_arg11 : FVec F S1024x1024 .f32) (main_arg12 : FVec F S1024x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1x1x1024 .f32 := Host.absf main_arg6
  let main_cst_10 : FVec F S_ .f32 := constant S_ .f32 0x7F800000#32
  let main_v30 : FVec F S1x1x1024 .f32 := broadcastInDim S1x1x1024 ![] bcast_S_S1x1x1024 main_cst_10
  let main_v31 : IVec S1x1x1024 1 := cmpf .olt main_v29 main_v30
  let main_c_11 : IVec S_ 1 := constantI S_ 1 1#1
  let main_v32 : IVec S_ 1 := (fun x v => Host.reduce IntOp.andi x v reducesTo_S1x1x1024_S_d0_1_2 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4x4096x1024 .f32) (main_arg1 : FVec F S1024 .f32) (main_arg2 : FVec F S1024 .f32) (main_arg3 : FVec F S1024 .f32) (main_arg4 : FVec F S1024 .f32) (main_arg5 : FVec F S1024 .f32) (main_arg6 : FVec F S1x1x1024 .f32) (main_arg7 : FVec F S1x1x1024 .f32) (main_arg8 : FVec F S1x1x1024 .f32) (main_arg9 : FVec F S1024x1024 .f32) (main_arg10 : FVec F S1024x1024 .f32) (main_arg11 : FVec F S1024x1024 .f32) (main_arg12 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_v13 main_v16
-- ==== Kernel.lean ====
abbrev S4x4096x1024 : Shape := ⟨3, ![4, 4096, 1024]⟩
abbrev S1024 : Shape := ⟨1, ![1024]⟩
abbrev S1x1x1024 : Shape := ⟨3, ![1, 1, 1024]⟩
abbrev S1024x1024 : Shape := ⟨2, ![1024, 1024]⟩
abbrev S1x1024 : Shape := ⟨2, ![1, 1024]⟩
abbrev S4x1x1024 : Shape := ⟨3, ![4, 1, 1024]⟩
abbrev S1x256x1024 : Shape := ⟨3, ![1, 256, 1024]⟩
abbrev S256x1024 : Shape := ⟨2, ![256, 1024]⟩
abbrev S4x1024 : Shape := ⟨2, ![4, 1024]⟩

abbrev nBuf : Space → Nat
  | .hbm => 36
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S4x4096x1024, .f32⟩
  | .hbm, ⟨30, _⟩ => ⟨S4x1x1024, .f32⟩
  | .hbm, ⟨31, _⟩ => ⟨S4x1x1024, .f32⟩
  | .hbm, ⟨32, _⟩ => ⟨S4x1x1024, .f32⟩
  | .hbm, ⟨33, _⟩ => ⟨S4x1024, .f32⟩
  | .hbm, ⟨34, _⟩ => ⟨S4x1024, .f32⟩
  | .hbm, ⟨35, _⟩ => ⟨S4x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x256x1024, .f32⟩
  | .local _ .vmem, ⟨15, _⟩ => ⟨S1x256x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_v16_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c15_i32 : BitVec 32 := 15#32
  let v81 : BitVec 1 := Scalar.cmpi .eq arg1 c15_i32
  let v82 : BitVec 32 := Scalar.extui v81
  let c0_i32 : BitVec 32 := 0#32
  let v83 : BitVec 1 := Scalar.cmpi .ne v82 c0_i32
  v83

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  shapeCasts_S1x1x1024_S1x1024 : S1x1x1024.ShapeCasts S1x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S256x1024_S1x256x1024 : S256x1024.ShapeCasts S1x256x1024
  slices_S256x1024_o255_0_S1x1024 : S256x1024.Slices ![255, 0] S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1024_S1x1x1024 : S1x1024.ShapeCasts S1x1x1024
  shapeCasts_S4x1x1024_S4x1024 : S4x1x1024.ShapeCasts S4x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x4096x1024.size a
  hwx0_0 : ∀ i : grid0.Coords, EltTy.bits .f32 = 32 ∨ (Rect.block (s := S4x4096x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S1024x1024.size a
  hwx0_11 : ∀ i : grid0.Coords, EltTy.bits .bf16 = 32 ∨ (Rect.block (s := S1024x1024) S1024x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .bf16 = 32 ∨ (Rect.block (s := S1024x1024) S1024x1024.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256x1024.size a ≤ S4x4096x1024.size a
  hwx0_13 : ∀ i : grid0.Coords, EltTy.bits .f32 = 32 ∨ (Rect.block (s := S4x4096x1024) S1x256x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1x1024.size a ≤ S4x1x1024.size a
  hwx0_14 : ∀ i : grid0.Coords, EltTy.bits .f32 = 32 ∨ (Rect.block (s := S4x1x1024) S1x1x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x1x1024.size a ≤ S4x1x1024.size a
  hwx0_15 : ∀ i : grid0.Coords, EltTy.bits .f32 = 32 ∨ (Rect.block (s := S4x1x1024) S1x1x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x1x1024.size a ≤ S4x1x1024.size a
  hwx0_16 : ∀ i : grid0.Coords, EltTy.bits .f32 = 32 ∨ (Rect.block (s := S4x1x1024) S1x1x1024.size (cc0_transform_16 i) (hinb0_16 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1024x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v16_0) S1x256x1024.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v16_1) S1x1x1024.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v16_2) S1x1x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v16_3) S1x1x1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev idle0 : Fin 17 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k0_cond1 i == 1#1) | 15 => fun i => !(k0_cond1 i == 1#1) | 16 => fun i => !(k0_cond1 i == 1#1) | ⟨_ + 17, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024 : Shape := ⟨1, ![1024]⟩
abbrev S1x1x1024 : Shape := ⟨3, ![1, 1, 1024]⟩
abbrev S1024x1024 : Shape := ⟨2, ![1024, 1024]⟩
abbrev S_ : Shape := ⟨0, ![]⟩
abbrev S4x1x1024 : Shape := ⟨3, ![4, 1, 1024]⟩
abbrev S4x1024 : Shape := ⟨2, ![4, 1024]⟩

abbrev nBuf : Space → Nat
  | .hbm => 84
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S4x4096x1024, .f32⟩
  | .hbm, ⟨14, _⟩ => ⟨S4x4096x1024, .f32⟩
  | .hbm, ⟨15, _⟩ => ⟨S_, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S1x1x1024, .f32⟩
  | .hbm, ⟨29, _⟩ => ⟨S1x1x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S_, .f32⟩
  | .hbm, ⟨36, _⟩ => ⟨S1x1x1024, .f32⟩
  | .hbm, ⟨37, _⟩ => ⟨S1x1x1024, .f32⟩
  | .hbm, ⟨38, _⟩ => ⟨S1x1x1024, .f32⟩
  | .hbm, ⟨39, _⟩ => ⟨S1x1x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S1x1x1024, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S1x1x1024, .f32⟩
  | .hbm, ⟨49, _⟩ => ⟨S4x4096x1024, .f32⟩
  | .hbm, ⟨50, _⟩ => ⟨S4x4096x1024, .f32⟩
  | .hbm, ⟨51, _⟩ => ⟨S1x1x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S_, .f32⟩
  | .hbm, ⟨58, _⟩ => ⟨S4x4096x1024, .f32⟩
  | .hbm, ⟨59, _⟩ => ⟨S4x4096x1024, .f32⟩
  | .hbm, ⟨60, _⟩ => ⟨S_, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S1024, .f32⟩
  | .hbm, ⟨65, _⟩ => ⟨S1024, .f32⟩
  | .hbm, ⟨66, _⟩ => ⟨S1024, .f32⟩
  | .hbm, ⟨67, _⟩ => ⟨S4x4096x1024, .f32⟩
  | .hbm, ⟨68, _⟩ => ⟨S1024, .f32⟩
  | .hbm, ⟨69, _⟩ => ⟨S4x4096x1024, .f32⟩
  | .hbm, ⟨70, _⟩ => ⟨S1x1x1024, .f32⟩
  | .hbm, ⟨71, _⟩ => ⟨S4x4096x1024, .f32⟩
  | .hbm, ⟨72, _⟩ => ⟨S4x4096x1024, .f32⟩
  | .hbm, ⟨73, _⟩ => ⟨S1024, .f32⟩
  | .hbm, ⟨74, _⟩ => ⟨S1x1x1024, .f32⟩
  | .hbm, ⟨75, _⟩ => ⟨S4x4096x1024, .f32⟩
  | .hbm, ⟨76, _⟩ => ⟨S4x4096x1024, .f32⟩
  | .hbm, ⟨77, _⟩ => ⟨S4x4096x1024, .f32⟩
  | .hbm, ⟨78, _⟩ => ⟨S4x1x1024, .f32⟩
  | .hbm, ⟨79, _⟩ => ⟨S4x1024, .f32⟩
  | .hbm, ⟨80, _⟩ => ⟨S4x1x1024, .f32⟩
  | .hbm, ⟨81, _⟩ => ⟨S4x1024, .f32⟩
  | .hbm, ⟨82, _⟩ => ⟨S4x1x1024, .f32⟩
  | .hbm, ⟨83, _⟩ => ⟨S4x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_2 : Ref sig .tc := ⟨.hbm, 57, rfl⟩
abbrev main_v41 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]

class Facts₀ : Prop where
  bcast_S1x1x1024_S4x4096x1024_0_1_2 : S1x1x1024.BroadcastsInDim S4x4096x1024 (![0, 1, 2] : Fin 3 → Fin S4x4096x1024.rank)
  bcast_S_S1x1x1024 : S_.BroadcastsInDim S1x1x1024 (![] : Fin 0 → Fin S1x1x1024.rank)
  bcast_S1024_S1x1x1024_2 : S1024.BroadcastsInDim S1x1x1024 (![2] : Fin 1 → Fin S1x1x1024.rank)
  bcast_S_S4x4096x1024 : S_.BroadcastsInDim S4x4096x1024 (![] : Fin 0 → Fin S4x4096x1024.rank)
  slices_S4x4096x1024_S4x1x1024_0_4095_0 : S4x4096x1024.Slices ![0, 4095, 0] S4x1x1024
  shapeCasts_S4x1x1024_S4x1024 : S4x1x1024.ShapeCasts S4x1024
  dot_S4x4096x1024_S1024x1024_S4x4096x1024_2_1_01_0_n_n_wf : DotDims.WF S4x4096x1024 S1024x1024 S4x4096x1024 [2] [1] [0, 1] [0] [] []

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.TimeMixSpec.lean ====
/-
  One token of RWKV time-mixing over the extended reals, as plain functions of coordinates.

  A token is a row `xr` of 1024 entries. With the carried row `lx` and three weight rows it is interpolated three
  times (`lerp`), each interpolation is projected by a 1024 × 1024 matrix (`proj`: entry `e` is the row against
  row `e` of the matrix), giving the key, the value and the receptance. The WKV quotient, its sigmoid gate, the
  output projection and the updated numerator and denominator are then entry-wise expressions in those three.
  Nothing here mentions a shape or a program: the reference reads its arrays, and the kernel its blocks, through
  these functions, so the two sides meet on one term.
-/
import Idealize.ShloMosaic.PureOps.Ideal.Laws
import Idealize.ShloMosaic.Lib.IdealHost

noncomputable section

namespace Cert.TimeMix

open Idealize.ShloMosaic

/-- The carried rows, the mixing weights and the four matrices: everything a token is combined with. A matrix is
    read as `W e d`: output entry `e`, contracted entry `d`. -/
structure Params where
  /-- the carried token -/
  lx : Fin 1024 → EReal
  /-- the carried numerator -/
  ln : Fin 1024 → EReal
  /-- the carried denominator -/
  ld : Fin 1024 → EReal
  /-- the decay exponent -/
  td : Fin 1024 → EReal
  /-- the bonus for the current token -/
  tf : Fin 1024 → EReal
  /-- the mixing weight of the key -/
  mixK : Fin 1024 → EReal
  /-- the mixing weight of the value -/
  mixV : Fin 1024 → EReal
  /-- the mixing weight of the receptance -/
  mixR : Fin 1024 → EReal
  /-- the key matrix -/
  Wk : Fin 1024 → Fin 1024 → EReal
  /-- the value matrix -/
  Wv : Fin 1024 → Fin 1024 → EReal
  /-- the receptance matrix -/
  Wr : Fin 1024 → Fin 1024 → EReal
  /-- the output matrix -/
  Wo : Fin 1024 → Fin 1024 → EReal

/-- The token-shift interpolation `xv·tm + lx·(1 − tm)`; the `1` is kept as the f32 word both programs print. -/
def lerp (xv tm lx : EReal) : EReal := xv * tm + lx * (Ideal.ofBits .f32 0x3F800000#32 - tm)

/-- Entry `e` of a row projected by a matrix: `∑ d, f d · W e d`. -/
def proj (f : Fin 1024 → EReal) (W : Fin 1024 → Fin 1024 → EReal) (e : Fin 1024) : EReal := ∑ d : Fin 1024, f d * W e d

variable (P : Params) (xr : Fin 1024 → EReal)

/-- The key of a token. -/
def key (e : Fin 1024) : EReal := proj (fun d => lerp (xr d) (P.mixK d) (P.lx d)) P.Wk e

/-- The value of a token. -/
def value (e : Fin 1024) : EReal := proj (fun d => lerp (xr d) (P.mixV d) (P.lx d)) P.Wv e

/-- The receptance of a token. -/
def recept (e : Fin 1024) : EReal := proj (fun d => lerp (xr d) (P.mixR d) (P.lx d)) P.Wr e

/-- The WKV quotient `(ln + e^(tf + k)·v) / (ld + e^(tf + k))`. -/
def wkv (e : Fin 1024) : EReal :=
  Ideal.div (P.ln e + Ideal.exp (P.tf e + key P xr e) * value P xr e) (P.ld e + Ideal.exp (P.tf e + key P xr e))

/-- The quotient gated by the sigmoid of the receptance. -/
def gated (e : Fin 1024) : EReal := Ideal.logistic (recept P xr e) * wkv P xr e

/-- The output of a token: the gated quotient projected by the output matrix. -/
def out (e : Fin 1024) : EReal := proj (gated P xr) P.Wo e

/-- The decay factor `e^(−e^td)`. -/
def decay (e : Fin 1024) : EReal := Ideal.exp (-(Ideal.exp (P.td e)))

/-- The updated numerator `decay·ln + e^k·v`. -/
def num (e : Fin 1024) : EReal := decay P e * P.ln e + Ideal.exp (key P xr e) * value P xr e

/-- The updated denominator `decay·ld + e^k`. -/
def den (e : Fin 1024) : EReal := decay P e * P.ld e + Ideal.exp (key P xr e)

/-- The sigmoid spelt as a quotient with the f32 word of one is the sigmoid. -/
theorem logistic_spelt (r : EReal) :
    Ideal.div (Ideal.ofBits .f32 0x3F800000#32) (Ideal.ofBits .f32 0x3F800000#32 + Ideal.exp (-r)) = Ideal.logistic r := by
  rw [Ideal.ofBits_one_f32]; rfl

/-- Subtracting from the f32 word of zero negates. -/
theorem zero_word_sub (y : EReal) : Ideal.ofBits .f32 0x00000000#32 - y = -y := by
  rw [Ideal.ofBits_zero_f32, zero_sub]

end Cert.TimeMix

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.KernelBlock.lean ====
/-
  One grid point of the kernel over the extended reals, read entry by entry.

  At a grid point the body holds a block of 256 tokens (rows of 1024 entries), eight parameter rows and four
  1024 × 1024 matrices stored transposed (entry `(d, e)` of the stored matrix is the weight from input entry `d` to
  output entry `e`). Every value the body computes is, at row `r` and entry `e`, the corresponding function of
  token `r` alone: the three interpolations are entry-wise, each matrix product at `(r, e)` is the sum over `d`
  of the left row `r` against the stored matrix's column `e`, and the rest is entry-wise again. A change of float
  format is the identity here, so the narrowed operands of the products are the values themselves.
-/
import proofs.«153176_j738734375125_1_alg».proof.Proof.Gen.KernelIdeal.Skeleton
import proofs.«153176_j738734375125_1_alg».proof.Proof.TimeMixSpec
import proofs.«153176_j738734375125_1_alg».proof.Proof.LibPlainMatmul
import Idealize.ShloMosaic.Lib.ValueLayout
import Idealize.ShloMosaic.Lib.ValueIdx
import Idealize.ShloMosaic.Lib.Pipeline.Value

noncomputable section

namespace Cert.TimeMix.Blk

open Idealize.ShloMosaic Idealize.ShloMosaic.ValueIdx Cert.KernelIdeal Cert.KernelIdeal.Gen

/-- A parameter row as the body loads it. -/
abbrev VRow : Type := Vec Ideal S1x1024 .f32
/-- A stored (transposed) matrix as the body loads it. -/
abbrev VMat : Type := Vec Ideal S1024x1024 .bf16
/-- A block of 256 tokens as the body loads it. -/
abbrev VBlk : Type := Vec Ideal S1x256x1024 .f32

/-- The loaded rows and matrices read as a token's parameters; a stored matrix is read transposed. -/
def params (x1 x2 x3 x4 x5 x6 x7 x8 : VRow) (x9 x10 x11 x12 : VMat) : Params where
  lx d := x1 (ix2 0 d)
  ln d := x2 (ix2 0 d)
  ld d := x3 (ix2 0 d)
  td d := x4 (ix2 0 d)
  tf d := x5 (ix2 0 d)
  mixK d := x6 (ix2 0 d)
  mixV d := x7 (ix2 0 d)
  mixR d := x8 (ix2 0 d)
  Wk e d := x9 (ix2 d e)
  Wv e d := x10 (ix2 d e)
  Wr e d := x11 (ix2 d e)
  Wo e d := x12 (ix2 d e)

/-- Token `r` of the loaded block. -/
def row (x0 : VBlk) (r : Fin 256) : Fin 1024 → EReal := fun d => x0 (ix3 0 r d)

variable (x0 : VBlk) (x1 x2 x3 x4 x5 x6 x7 x8 : VRow) (x9 x10 x11 x12 : VMat)

/-- The block viewed as a matrix. -/
theorem pay5_at (r : Fin 256) (d : Fin 1024) : k0_pay5 (F := Ideal) x0 (ix2 r d) = x0 (ix3 0 r d) := by
  unfold k0_pay5
  exact shapeCast_1ab_ab_apply x0 _ r d

/-- A parameter row cast to its own shape. -/
theorem pay6_at (d : Fin 1024) : k0_pay6 (F := Ideal) x1 (ix2 0 d) = x1 (ix2 0 d) := by
  unfold k0_pay6
  rw [shapeCast_self]

/-- The interpolation of the block against a weight row `xm`, at row `r`, entry `d`. -/
theorem mix_at (xm : VRow) (r : Fin 256) (d : Fin 1024) :
    (addf (mulf (k0_pay5 (F := Ideal) x0) (broadcastTo S256x1024 (shapeCast S1x1024 xm shapeCasts_S1x1024_S1x1024) broadcasts_S1x1024_S256x1024))
      (broadcastTo S256x1024 (mulf (k0_pay6 (F := Ideal) x1) (subf (broadcast S1x1024 (Scalar.ofBits (F := Ideal) .f32 0x3F800000#32)) (shapeCast S1x1024 xm shapeCasts_S1x1024_S1x1024))) broadcasts_S1x1024_S256x1024)
        : FVec Ideal S256x1024 .f32) (ix2 r d)
      = lerp (x0 (ix3 0 r d)) (xm (ix2 0 d)) (x1 (ix2 0 d)) := by
  rw [addf_apply, mulf_apply, broadcastTo_1b_ab_apply, broadcastTo_1b_ab_apply, mulf_apply, subf_apply, broadcast_apply,
    pay5_at, pay6_at, shapeCast_self]
  rfl

/-- The interpolation for the receptance. -/
theorem pay7_at (r : Fin 256) (d : Fin 1024) :
    k0_pay7 (F := Ideal) x0 x1 x8 (ix2 r d) = lerp (x0 (ix3 0 r d)) (x8 (ix2 0 d)) (x1 (ix2 0 d)) := by
  unfold k0_pay7
  exact mix_at x0 x1 x8 r d

/-- The interpolation for the value; narrowing it for the product does not change the number. -/
theorem pay9_at (r : Fin 256) (d : Fin 1024) :
    k0_pay9 (F := Ideal) x0 x1 x7 (ix2 r d) = lerp (x0 (ix3 0 r d)) (x7 (ix2 0 d)) (x1 (ix2 0 d)) := by
  unfold k0_pay9
  exact mix_at x0 x1 x7 r d

/-- A 256 × 1024 block times a stored 1024 × 1024 matrix, into the zero block: entry `(r, e)` is the sum over `c` of
    row `r` against column `e`. -/
theorem matmul_at {φ₁ φ₂ : FTy} (A : FVec Ideal S256x1024 φ₁) (B : FVec Ideal S1024x1024 φ₂) (r : Fin 256) (e : Fin 1024) :
    matmul dot_S256x1024_S1024x1024_S256x1024_1_0_0_1_n_n none A B (constant S256x1024 .f32 0x00000000#32) (ix2 r e)
      = ∑ c : Fin 1024, A (ix2 r c) * B (ix2 c e) :=
  PlainMatmul.matmul_zero_apply none A B r e

/-- The key of token `r`. -/
theorem pay8_at (r : Fin 256) (e : Fin 1024) :
    k0_pay8 (F := Ideal) x0 x1 x6 x9 (ix2 r e) = key (params x1 x2 x3 x4 x5 x6 x7 x8 x9 x10 x11 x12) (row x0 r) e := by
  unfold k0_pay8
  refine (matmul_at _ _ r e).trans ?_
  unfold key proj
  refine Finset.sum_congr rfl fun c _ => ?_
  refine congrArg₂ (· * ·) ?_ ?_
  · exact mix_at x0 x1 x6 r c
  · rw [shapeCast_self]
    rfl

/-- The value of token `r`. -/
theorem pay11_at (r : Fin 256) (e : Fin 1024) :
    k0_pay11 (F := Ideal) (k0_pay9 x0 x1 x7) (k0_pay10 x10) (constant S256x1024 .f32 0x00000000#32) (ix2 r e)
      = value (params x1 x2 x3 x4 x5 x6 x7 x8 x9 x10 x11 x12) (row x0 r) e := by
  unfold k0_pay11
  refine (matmul_at _ _ r e).trans ?_
  unfold value proj
  refine Finset.sum_congr rfl fun c _ => ?_
  refine congrArg₂ (· * ·) ?_ ?_
  · exact pay9_at x0 x1 x7 r c
  · unfold k0_pay10
    rw [shapeCast_self]
    rfl

/-- The decay factor: `0 − e^td` is `−e^td`. -/
theorem pay14_at (e : Fin 1024) :
    k0_pay14 (F := Ideal) x4 (ix2 0 e) = decay (params x1 x2 x3 x4 x5 x6 x7 x8 x9 x10 x11 x12) e := by
  unfold k0_pay14 decay
  rw [shapeCast_self]
  show Ideal.exp (Ideal.ofBits .f32 0x00000000#32 - Ideal.exp (x4 (ix2 0 e))) = _
  rw [zero_word_sub]
  rfl

/-- The updated numerator of token `r`. -/
theorem pay16_at (r : Fin 256) (e : Fin 1024) :
    k0_pay16 (F := Ideal) (k0_pay8 x0 x1 x6 x9) (k0_pay9 x0 x1 x7) (k0_pay10 x10) (constant S256x1024 .f32 0x00000000#32) x4 x2 (ix2 r e)
      = num (params x1 x2 x3 x4 x5 x6 x7 x8 x9 x10 x11 x12) (row x0 r) e := by
  unfold k0_pay16 num
  rw [addf_apply, broadcastTo_1b_ab_apply, mulf_apply, mulf_apply]
  refine congrArg₂ (· + ·) (congrArg₂ (· * ·) ?_ ?_) (congrArg₂ (· * ·) ?_ ?_)
  · exact pay14_at x1 x2 x3 x4 x5 x6 x7 x8 x9 x10 x11 x12 e
  · unfold k0_pay12
    rw [shapeCast_self]
    rfl
  · exact congrArg Ideal.exp (pay8_at x0 x1 x2 x3 x4 x5 x6 x7 x8 x9 x10 x11 x12 r e)
  · exact pay11_at x0 x1 x2 x3 x4 x5 x6 x7 x8 x9 x10 x11 x12 r e

/-- The updated denominator of token `r`. -/
theorem pay17_at (r : Fin 256) (e : Fin 1024) :
    k0_pay17 (F := Ideal) (k0_pay8 x0 x1 x6 x9) x4 x3 (ix2 r e) = den (params x1 x2 x3 x4 x5 x6 x7 x8 x9 x10 x11 x12) (row x0 r) e := by
  unfold k0_pay17 den
  rw [addf_apply, broadcastTo_1b_ab_apply, mulf_apply]
  refine congrArg₂ (· + ·) (congrArg₂ (· * ·) ?_ ?_) ?_
  · exact pay14_at x1 x2 x3 x4 x5 x6 x7 x8 x9 x10 x11 x12 e
  · unfold k0_pay13
    rw [shapeCast_self]
    rfl
  · exact congrArg Ideal.exp (pay8_at x0 x1 x2 x3 x4 x5 x6 x7 x8 x9 x10 x11 x12 r e)

/-- The receptance of token `r`. -/
theorem recept_at (r : Fin 256) (c : Fin 1024) :
    matmul dot_S256x1024_S1024x1024_S256x1024_1_0_0_1_n_n none (truncf .bf16 (k0_pay7 (F := Ideal) x0 x1 x8) bitsLt_bf16_f32)
        (shapeCast S1024x1024 x11 shapeCasts_S1024x1024_S1024x1024 : FVec Ideal S1024x1024 .bf16) (constant S256x1024 .f32 0x00000000#32) (ix2 r c)
      = recept (params x1 x2 x3 x4 x5 x6 x7 x8 x9 x10 x11 x12) (row x0 r) c := by
  refine (matmul_at _ _ r c).trans ?_
  unfold recept proj
  refine Finset.sum_congr rfl fun d _ => ?_
  refine congrArg₂ (· * ·) ?_ ?_
  · exact pay7_at x0 x1 x8 r d
  · rw [shapeCast_self]
    rfl

/-- The gated quotient of token `r`: the kernel's sigmoid is the quotient's, by definition. -/
theorem gated_at (r : Fin 256) (c : Fin 1024) :
    (mulf (logistic (matmul dot_S256x1024_S1024x1024_S256x1024_1_0_0_1_n_n none (truncf .bf16 (k0_pay7 (F := Ideal) x0 x1 x8) bitsLt_bf16_f32)
        (shapeCast S1024x1024 x11 shapeCasts_S1024x1024_S1024x1024 : FVec Ideal S1024x1024 .bf16) (constant S256x1024 .f32 0x00000000#32)))
      (divf (addf (broadcastTo S256x1024 (k0_pay12 x2) broadcasts_S1x1024_S256x1024)
          (mulf (exp (addf (broadcastTo S256x1024 (shapeCast S1x1024 x5 shapeCasts_S1x1024_S1x1024) broadcasts_S1x1024_S256x1024) (k0_pay8 x0 x1 x6 x9)))
            (k0_pay11 (k0_pay9 x0 x1 x7) (k0_pay10 x10) (constant S256x1024 .f32 0x00000000#32))))
        (addf (broadcastTo S256x1024 (k0_pay13 x3) broadcasts_S1x1024_S256x1024)
          (exp (addf (broadcastTo S256x1024 (shapeCast S1x1024 x5 shapeCasts_S1x1024_S1x1024) broadcasts_S1x1024_S256x1024) (k0_pay8 x0 x1 x6 x9)))))
        : FVec Ideal S256x1024 .f32) (ix2 r c)
      = gated (params x1 x2 x3 x4 x5 x6 x7 x8 x9 x10 x11 x12) (row x0 r) c := by
  unfold gated wkv
  rw [mulf_apply, divf_apply, addf_apply, addf_apply, mulf_apply, broadcastTo_1b_ab_apply, broadcastTo_1b_ab_apply]
  have hk : (exp (addf (broadcastTo S256x1024 (shapeCast S1x1024 x5 shapeCasts_S1x1024_S1x1024) broadcasts_S1x1024_S256x1024) (k0_pay8 (F := Ideal) x0 x1 x6 x9)) : FVec Ideal S256x1024 .f32) (ix2 r c)
      = Ideal.exp ((params x1 x2 x3 x4 x5 x6 x7 x8 x9 x10 x11 x12).tf c + key (params x1 x2 x3 x4 x5 x6 x7 x8 x9 x10 x11 x12) (row x0 r) c) := by
    show Ideal.exp ((addf (broadcastTo S256x1024 (shapeCast S1x1024 x5 shapeCasts_S1x1024_S1x1024) broadcasts_S1x1024_S256x1024) (k0_pay8 (F := Ideal) x0 x1 x6 x9) : FVec Ideal S256x1024 .f32) (ix2 r c)) = _
    rw [addf_apply, broadcastTo_1b_ab_apply, shapeCast_self, pay8_at x0 x1 x2 x3 x4 x5 x6 x7 x8 x9 x10 x11 x12 r c]
    rfl
  rw [hk, pay11_at x0 x1 x2 x3 x4 x5 x6 x7 x8 x9 x10 x11 x12 r c]
  refine congrArg₂ (· * ·) ?_ (congrArg₂ Ideal.div (congrArg₂ (· + ·) ?_ rfl) (congrArg₂ (· + ·) ?_ rfl))
  · exact congrArg Ideal.logistic (recept_at x0 x1 x2 x3 x4 x5 x6 x7 x8 x9 x10 x11 x12 r c)
  · unfold k0_pay12
    rw [shapeCast_self]
    rfl
  · unfold k0_pay13
    rw [shapeCast_self]
    rfl

/-- The output of token `r`. -/
theorem pay18_at (r : Fin 256) (e : Fin 1024) :
    k0_pay18 (F := Ideal) (k0_pay7 x0 x1 x8) (k0_pay8 x0 x1 x6 x9) (k0_pay9 x0 x1 x7) (k0_pay10 x10) (constant S256x1024 .f32 0x00000000#32) x11 x5 x2 x3 x12 (ix2 r e)
      = out (params x1 x2 x3 x4 x5 x6 x7 x8 x9 x10 x11 x12) (row x0 r) e := by
  unfold k0_pay18
  refine (matmul_at _ _ r e).trans ?_
  unfold out proj
  refine Finset.sum_congr rfl fun c _ => ?_
  refine congrArg₂ (· * ·) ?_ ?_
  · exact gated_at x0 x1 x2 x3 x4 x5 x6 x7 x8 x9 x10 x11 x12 r c
  · rw [shapeCast_self]
    rfl

/-! ## The four stores -/

/-- The output block as stored: entry `(0, r, e)` is the output of token `r` at `e`. -/
theorem out_store_at (r : Fin 256) (e : Fin 1024) :
    k0_pay1 (F := Ideal) (k0_pay18 (k0_pay7 x0 x1 x8) (k0_pay8 x0 x1 x6 x9) (k0_pay9 x0 x1 x7) (k0_pay10 x10) (constant S256x1024 .f32 0x00000000#32) x11 x5 x2 x3 x12) (ix3 0 r e)
      = out (params x1 x2 x3 x4 x5 x6 x7 x8 x9 x10 x11 x12) (row x0 r) e := by
  unfold k0_pay1
  refine (shapeCast_ab_1ab_apply _ _ 0 r e).trans ?_
  exact pay18_at x0 x1 x2 x3 x4 x5 x6 x7 x8 x9 x10 x11 x12 r e

/-- The carried token as stored: the block's last row. -/
theorem xlast_store_at (e : Fin 1024) :
    k0_pay2 (F := Ideal) (k0_pay5 x0) (ix3 0 0 e) = x0 (ix3 0 255 e) := by
  unfold k0_pay2
  refine (shapeCast_ab_1ab_apply _ _ 0 0 e).trans ?_
  refine (slice2_axis0_apply 255 _ _ 0 e 255 rfl).trans ?_
  exact pay5_at x0 255 e

/-- The carried numerator as stored: the last token's. -/
theorem num_store_at (e : Fin 1024) :
    k0_pay3 (F := Ideal) (k0_pay16 (k0_pay8 x0 x1 x6 x9) (k0_pay9 x0 x1 x7) (k0_pay10 x10) (constant S256x1024 .f32 0x00000000#32) x4 x2) (ix3 0 0 e)
      = num (params x1 x2 x3 x4 x5 x6 x7 x8 x9 x10 x11 x12) (row x0 255) e := by
  unfold k0_pay3
  refine (shapeCast_ab_1ab_apply _ _ 0 0 e).trans ?_
  refine (slice2_axis0_apply 255 _ _ 0 e 255 rfl).trans ?_
  exact pay16_at x0 x1 x2 x3 x4 x5 x6 x7 x8 x9 x10 x11 x12 255 e

/-- The carried denominator as stored: the last token's. -/
theorem den_store_at (e : Fin 1024) :
    k0_pay4 (F := Ideal) (k0_pay17 (k0_pay8 x0 x1 x6 x9) x4 x3) (ix3 0 0 e)
      = den (params x1 x2 x3 x4 x5 x6 x7 x8 x9 x10 x11 x12) (row x0 255) e := by
  unfold k0_pay4
  refine (shapeCast_ab_1ab_apply _ _ 0 0 e).trans ?_
  refine (slice2_axis0_apply 255 _ _ 0 e 255 rfl).trans ?_
  exact pay17_at x0 x1 x2 x3 x4 x5 x6 x7 x8 x9 x10 x11 x12 255 e

end Cert.TimeMix.Blk

end
-- ==== Proof.KernelReads.lean ====
/-
  What each window's block holds at a grid point, in terms of the argument arrays.

  The grid has 4 × 16 points; point `t` works on batch `t / 16` and on the 256 tokens from `256 · (t mod 16)`. The
  token window moves with the point; the eight parameter rows and the four matrices are whole arrays read at every
  point. Before the call the host reshapes each parameter vector to one row and transposes each matrix (narrowing
  it, which changes no number here), so a row's entry `(0, d)` is the vector's entry `d` and a stored matrix's entry
  `(d, e)` is the matrix's entry `(e, d)`.
-/
import proofs.«153176_j738734375125_1_alg».proof.Proof.Gen.KernelIdeal.Frame.Runs
import proofs.«153176_j738734375125_1_alg».proof.Proof.KernelBlock
import Idealize.ShloMosaic.Lib.StableHlo.Run
import Idealize.ShloMosaic.Lib.ValueLayout
import Idealize.ShloMosaic.Lib.Pipeline.Value

noncomputable section

namespace Cert.TimeMix.Krn

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The argument arrays read as a token's parameters. -/
def params : Params where
  lx d := (m ((c : Thread nD τ).loc main_arg1)) (ix1 d)
  ln d := (m ((c : Thread nD τ).loc main_arg2)) (ix1 d)
  ld d := (m ((c : Thread nD τ).loc main_arg3)) (ix1 d)
  td d := (m ((c : Thread nD τ).loc main_arg4)) (ix1 d)
  tf d := (m ((c : Thread nD τ).loc main_arg5)) (ix1 d)
  mixK d := (m ((c : Thread nD τ).loc main_arg6)) (ix3 0 0 d)
  mixV d := (m ((c : Thread nD τ).loc main_arg7)) (ix3 0 0 d)
  mixR d := (m ((c : Thread nD τ).loc main_arg8)) (ix3 0 0 d)
  Wk e d := (m ((c : Thread nD τ).loc main_arg9)) (ix2 e d)
  Wv e d := (m ((c : Thread nD τ).loc main_arg10)) (ix2 e d)
  Wr e d := (m ((c : Thread nD τ).loc main_arg11)) (ix2 e d)
  Wo e d := (m ((c : Thread nD τ).loc main_arg12)) (ix2 e d)

/-- Token `(b, t)` of the token array. -/
def row (b : Fin 4) (t : Fin 4096) : Fin 1024 → EReal := fun d => (m ((c : Thread nD τ).loc main_arg0)) (ix3 b t d)

/-- Two parameter records with equal fields are equal. -/
theorem params_ext {P Q : Params} (h1 : P.lx = Q.lx) (h2 : P.ln = Q.ln) (h3 : P.ld = Q.ld) (h4 : P.td = Q.td) (h5 : P.tf = Q.tf)
    (h6 : P.mixK = Q.mixK) (h7 : P.mixV = Q.mixV) (h8 : P.mixR = Q.mixR) (h9 : P.Wk = Q.Wk) (h10 : P.Wv = Q.Wv)
    (h11 : P.Wr = Q.Wr) (h12 : P.Wo = Q.Wo) : P = Q := by
  cases P; cases Q
  dsimp only at h1 h2 h3 h4 h5 h6 h7 h8 h9 h10 h11 h12
  subst h1 h2 h3 h4 h5 h6 h7 h8 h9 h10 h11 h12
  rfl

/-! ## The index maps, decided over the grid -/

/-- The token window and the output window sit at block `(t / 16, t mod 16, 0)`. -/
theorem idx_tok : ∀ t : Fin cfg0.N,
    (win0_0.index t (0 : Fin 3) = t.val / 16 ∧ win0_0.index t (1 : Fin 3) = t.val % 16 ∧ win0_0.index t (2 : Fin 3) = 0)
    ∧ (win0_13.index t (0 : Fin 3) = t.val / 16 ∧ win0_13.index t (1 : Fin 3) = t.val % 16 ∧ win0_13.index t (2 : Fin 3) = 0) :=
  (by decide +kernel : ∀ t : Fin grid0.N, _)

/-- The three carried windows sit at block `(t / 16, 0, 0)`. -/
theorem idx_carry : ∀ t : Fin cfg0.N,
    (win0_14.index t (0 : Fin 3) = t.val / 16 ∧ win0_14.index t (1 : Fin 3) = 0 ∧ win0_14.index t (2 : Fin 3) = 0)
    ∧ (win0_15.index t (0 : Fin 3) = t.val / 16 ∧ win0_15.index t (1 : Fin 3) = 0 ∧ win0_15.index t (2 : Fin 3) = 0)
    ∧ (win0_16.index t (0 : Fin 3) = t.val / 16 ∧ win0_16.index t (1 : Fin 3) = 0 ∧ win0_16.index t (2 : Fin 3) = 0) :=
  (by decide +kernel : ∀ t : Fin grid0.N, _)

/-- The parameter rows and the matrices never move. -/
theorem idx_const : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- The batch of grid point `t`. -/
def bOf (t : Fin cfg0.N) : Fin 4 := ⟨t.val / 16, by have := t.isLt; have hN : cfg0.N = 64 := N_0; omega⟩

/-- The token that row `r` of grid point `t`'s block is. -/
def tokOf (t : Fin cfg0.N) (r : Fin 256) : Fin 4096 := ⟨256 * (t.val % 16) + r.val, by have := r.isLt; omega⟩

/-! ## The arrays the host wrote before the call -/

theorem V_main_v8 : (V m c main_v8 : S1x1024.Idx → EReal) = shapeCast S1x1024 (m ((c : Thread nD τ).loc main_arg1)) shapeCasts_S1024_S1x1024 := by
  show StableHlo.after hostOps0 (fun b => m (c, b)) (Proc.devRef .tc main_v8) = _
  after_results
  rfl

theorem V_main_v9 : (V m c main_v9 : S1x1024.Idx → EReal) = shapeCast S1x1024 (m ((c : Thread nD τ).loc main_arg2)) shapeCasts_S1024_S1x1024 := by
  show StableHlo.after hostOps0 (fun b => m (c, b)) (Proc.devRef .tc main_v9) = _
  after_results
  rfl

theorem V_main_v10 : (V m c main_v10 : S1x1024.Idx → EReal) = shapeCast S1x1024 (m ((c : Thread nD τ).loc main_arg3)) shapeCasts_S1024_S1x1024 := by
  show StableHlo.after hostOps0 (fun b => m (c, b)) (Proc.devRef .tc main_v10) = _
  after_results
  rfl

theorem V_main_v11 : (V m c main_v11 : S1x1024.Idx → EReal) = shapeCast S1x1024 (m ((c : Thread nD τ).loc main_arg4)) shapeCasts_S1024_S1x1024 := by
  show StableHlo.after hostOps0 (fun b => m (c, b)) (Proc.devRef .tc main_v11) = _
  after_results
  rfl

theorem V_main_v12 : (V m c main_v12 : S1x1024.Idx → EReal) = shapeCast S1x1024 (m ((c : Thread nD τ).loc main_arg5)) shapeCasts_S1024_S1x1024 := by
  show StableHlo.after hostOps0 (fun b => m (c, b)) (Proc.devRef .tc main_v12) = _
  after_results
  rfl

theorem V_main_v13 : (V m c main_v13 : S1x1024.Idx → EReal) = shapeCast S1x1024 (m ((c : Thread nD τ).loc main_arg6)) shapeCasts_S1x1x1024_S1x1024 := by
  show StableHlo.after hostOps0 (fun b => m (c, b)) (Proc.devRef .tc main_v13) = _
  after_results
  rfl

theorem V_main_v14 : (V m c main_v14 : S1x1024.Idx → EReal) = shapeCast S1x1024 (m ((c : Thread nD τ).loc main_arg7)) shapeCasts_S1x1x1024_S1x1024 := by
  show StableHlo.after hostOps0 (fun b => m (c, b)) (Proc.devRef .tc main_v14) = _
  after_results
  rfl

theorem V_main_v15 : (V m c main_v15 : S1x1024.Idx → EReal) = shapeCast S1x1024 (m ((c : Thread nD τ).loc main_arg8)) shapeCasts_S1x1x1024_S1x1024 := by
  show StableHlo.after hostOps0 (fun b => m (c, b)) (Proc.devRef .tc main_v15) = _
  after_results
  rfl

theorem V_main_v1 : (V m c main_v1 : S1024x1024.Idx → EReal)
    = truncf .bf16 (transpose S1024x1024 [1, 0] (m ((c : Thread nD τ).loc main_arg9)) transposes_S1024x1024_S1024x1024_1_0 : FVec Ideal S1024x1024 .f32) bitsLt_bf16_f32 := by
  show StableHlo.after hostOps0 (fun b => m (c, b)) (Proc.devRef .tc main_v1) = _
  after_results

theorem V_main_v3 : (V m c main_v3 : S1024x1024.Idx → EReal)
    = truncf .bf16 (transpose S1024x1024 [1, 0] (m ((c : Thread nD τ).loc main_arg10)) transposes_S1024x1024_S1024x1024_1_0 : FVec Ideal S1024x1024 .f32) bitsLt_bf16_f32 := by
  show StableHlo.after hostOps0 (fun b => m (c, b)) (Proc.devRef .tc main_v3) = _
  after_results

theorem V_main_v5 : (V m c main_v5 : S1024x1024.Idx → EReal)
    = truncf .bf16 (transpose S1024x1024 [1, 0] (m ((c : Thread nD τ).loc main_arg11)) transposes_S1024x1024_S1024x1024_1_0 : FVec Ideal S1024x1024 .f32) bitsLt_bf16_f32 := by
  show StableHlo.after hostOps0 (fun b => m (c, b)) (Proc.devRef .tc main_v5) = _
  after_results

theorem V_main_v7 : (V m c main_v7 : S1024x1024.Idx → EReal)
    = truncf .bf16 (transpose S1024x1024 [1, 0] (m ((c : Thread nD τ).loc main_arg12)) transposes_S1024x1024_S1024x1024_1_0 : FVec Ideal S1024x1024 .f32) bitsLt_bf16_f32 := by
  show StableHlo.after hostOps0 (fun b => m (c, b)) (Proc.devRef .tc main_v7) = _
  after_results

/-! ## Each window's block at an entry -/

/-- Row `r` of the token block at grid point `t` is token `256 · (t mod 16) + r` of batch `t / 16`. -/
theorem blk_tok (t : Fin cfg0.N) (r : Fin 256) (d : Fin 1024) :
    iblk m c 0 t (ix3 0 r d) = (m ((c : Thread nD τ).loc main_arg0)) (ix3 (bOf t) (tokOf t r) d) := by
  unfold iblk
  rw [View.read_apply]
  show V m c main_arg0 _ = _
  rw [V_main_arg0]
  refine congrArg (m ((c : Thread nD τ).loc main_arg0)) (funext fun a => Fin.ext ?_)
  obtain ⟨⟨e0, e1, e2⟩, -⟩ := idx_tok t
  match a with
  | ⟨0, _⟩ => show win0_0.index t (0 : Fin 3) * 1 + 1 * 0 = t.val / 16; omega
  | ⟨1, _⟩ => show win0_0.index t (1 : Fin 3) * 256 + 1 * r.val = 256 * (t.val % 16) + r.val; omega
  | ⟨2, _⟩ => show win0_0.index t (2 : Fin 3) * 1024 + 1 * d.val = d.val; omega

theorem blk_row1 (t : Fin cfg0.N) (d : Fin 1024) : iblk m c 1 t (ix2 0 d) = (m ((c : Thread nD τ).loc main_arg1)) (ix1 d) := by
  unfold iblk
  rw [View.read_apply]
  show V m c main_v8 _ = _
  rw [V_main_v8]
  obtain ⟨⟨e0, e1⟩, -, -, -, -, -, -, -, -, -, -, -⟩ := idx_const t
  have e : (((cfg0.win 1).blk t).view.emb (ix2 (0 : Fin 1) d) : S1x1024.Idx) = ix2 (0 : Fin 1) d := funext fun a => Fin.ext (by
    match a with
    | ⟨0, _⟩ => show win0_1.index t (0 : Fin 2) * 1 + 1 * 0 = 0; omega
    | ⟨1, _⟩ => show win0_1.index t (1 : Fin 2) * 1024 + 1 * d.val = d.val; omega)
  rw [e]
  exact shapeCast_a_1a_apply _ _ 0 d

theorem blk_row2 (t : Fin cfg0.N) (d : Fin 1024) : iblk m c 2 t (ix2 0 d) = (m ((c : Thread nD τ).loc main_arg2)) (ix1 d) := by
  unfold iblk
  rw [View.read_apply]
  show V m c main_v9 _ = _
  rw [V_main_v9]
  obtain ⟨-, ⟨e0, e1⟩, -, -, -, -, -, -, -, -, -, -⟩ := idx_const t
  have e : (((cfg0.win 2).blk t).view.emb (ix2 (0 : Fin 1) d) : S1x1024.Idx) = ix2 (0 : Fin 1) d := funext fun a => Fin.ext (by
    match a with
    | ⟨0, _⟩ => show win0_2.index t (0 : Fin 2) * 1 + 1 * 0 = 0; omega
    | ⟨1, _⟩ => show win0_2.index t (1 : Fin 2) * 1024 + 1 * d.val = d.val; omega)
  rw [e]
  exact shapeCast_a_1a_apply _ _ 0 d

theorem blk_row3 (t : Fin cfg0.N) (d : Fin 1024) : iblk m c 3 t (ix2 0 d) = (m ((c : Thread nD τ).loc main_arg3)) (ix1 d) := by
  unfold iblk
  rw [View.read_apply]
  show V m c main_v10 _ = _
  rw [V_main_v10]
  obtain ⟨-, -, ⟨e0, e1⟩, -, -, -, -, -, -, -, -, -⟩ := idx_const t
  have e : (((cfg0.win 3).blk t).view.emb (ix2 (0 : Fin 1) d) : S1x1024.Idx) = ix2 (0 : Fin 1) d := funext fun a => Fin.ext (by
    match a with
    | ⟨0, _⟩ => show win0_3.index t (0 : Fin 2) * 1 + 1 * 0 = 0; omega
    | ⟨1, _⟩ => show win0_3.index t (1 : Fin 2) * 1024 + 1 * d.val = d.val; omega)
  rw [e]
  exact shapeCast_a_1a_apply _ _ 0 d

theorem blk_row4 (t : Fin cfg0.N) (d : Fin 1024) : iblk m c 4 t (ix2 0 d) = (m ((c : Thread nD τ).loc main_arg4)) (ix1 d) := by
  unfold iblk
  rw [View.read_apply]
  show V m c main_v11 _ = _
  rw [V_main_v11]
  obtain ⟨-, -, -, ⟨e0, e1⟩, -, -, -, -, -, -, -, -⟩ := idx_const t
  have e : (((cfg0.win 4).blk t).view.emb (ix2 (0 : Fin 1) d) : S1x1024.Idx) = ix2 (0 : Fin 1) d := funext fun a => Fin.ext (by
    match a with
    | ⟨0, _⟩ => show win0_4.index t (0 : Fin 2) * 1 + 1 * 0 = 0; omega
    | ⟨1, _⟩ => show win0_4.index t (1 : Fin 2) * 1024 + 1 * d.val = d.val; omega)
  rw [e]
  exact shapeCast_a_1a_apply _ _ 0 d

theorem blk_row5 (t : Fin cfg0.N) (d : Fin 1024) : iblk m c 5 t (ix2 0 d) = (m ((c : Thread nD τ).loc main_arg5)) (ix1 d) := by
  unfold iblk
  rw [View.read_apply]
  show V m c main_v12 _ = _
  rw [V_main_v12]
  obtain ⟨-, -, -, -, ⟨e0, e1⟩, -, -, -, -, -, -, -⟩ := idx_const t
  have e : (((cfg0.win 5).blk t).view.emb (ix2 (0 : Fin 1) d) : S1x1024.Idx) = ix2 (0 : Fin 1) d := funext fun a => Fin.ext (by
    match a with
    | ⟨0, _⟩ => show win0_5.index t (0 : Fin 2) * 1 + 1 * 0 = 0; omega
    | ⟨1, _⟩ => show win0_5.index t (1 : Fin 2) * 1024 + 1 * d.val = d.val; omega)
  rw [e]
  exact shapeCast_a_1a_apply _ _ 0 d

theorem blk_row6 (t : Fin cfg0.N) (d : Fin 1024) : iblk m c 6 t (ix2 0 d) = (m ((c : Thread nD τ).loc main_arg6)) (ix3 0 0 d) := by
  unfold iblk
  rw [View.read_apply]
  show V m c main_v13 _ = _
  rw [V_main_v13]
  obtain ⟨-, -, -, -, -, ⟨e0, e1⟩, -, -, -, -, -, -⟩ := idx_const t
  have e : (((cfg0.win 6).blk t).view.emb (ix2 (0 : Fin 1) d) : S1x1024.Idx) = ix2 (0 : Fin 1) d := funext fun a => Fin.ext (by
    match a with
    | ⟨0, _⟩ => show win0_6.index t (0 : Fin 2) * 1 + 1 * 0 = 0; omega
    | ⟨1, _⟩ => show win0_6.index t (1 : Fin 2) * 1024 + 1 * d.val = d.val; omega)
  rw [e]
  exact shapeCast_1ab_ab_apply _ _ 0 d

theorem blk_row7 (t : Fin cfg0.N) (d : Fin 1024) : iblk m c 7 t (ix2 0 d) = (m ((c : Thread nD τ).loc main_arg7)) (ix3 0 0 d) := by
  unfold iblk
  rw [View.read_apply]
  show V m c main_v14 _ = _
  rw [V_main_v14]
  obtain ⟨-, -, -, -, -, -, ⟨e0, e1⟩, -, -, -, -, -⟩ := idx_const t
  have e : (((cfg0.win 7).blk t).view.emb (ix2 (0 : Fin 1) d) : S1x1024.Idx) = ix2 (0 : Fin 1) d := funext fun a => Fin.ext (by
    match a with
    | ⟨0, _⟩ => show win0_7.index t (0 : Fin 2) * 1 + 1 * 0 = 0; omega
    | ⟨1, _⟩ => show win0_7.index t (1 : Fin 2) * 1024 + 1 * d.val = d.val; omega)
  rw [e]
  exact shapeCast_1ab_ab_apply _ _ 0 d

theorem blk_row8 (t : Fin cfg0.N) (d : Fin 1024) : iblk m c 8 t (ix2 0 d) = (m ((c : Thread nD τ).loc main_arg8)) (ix3 0 0 d) := by
  unfold iblk
  rw [View.read_apply]
  show V m c main_v15 _ = _
  rw [V_main_v15]
  obtain ⟨-, -, -, -, -, -, -, ⟨e0, e1⟩, -, -, -, -⟩ := idx_const t
  have e : (((cfg0.win 8).blk t).view.emb (ix2 (0 : Fin 1) d) : S1x1024.Idx) = ix2 (0 : Fin 1) d := funext fun a => Fin.ext (by
    match a with
    | ⟨0, _⟩ => show win0_8.index t (0 : Fin 2) * 1 + 1 * 0 = 0; omega
    | ⟨1, _⟩ => show win0_8.index t (1 : Fin 2) * 1024 + 1 * d.val = d.val; omega)
  rw [e]
  exact shapeCast_1ab_ab_apply _ _ 0 d

theorem blk_mat9 (t : Fin cfg0.N) (d e : Fin 1024) : iblk m c 9 t (ix2 d e) = (m ((c : Thread nD τ).loc main_arg9)) (ix2 e d) := by
  unfold iblk
  rw [View.read_apply]
  show V m c main_v1 _ = _
  rw [V_main_v1]
  obtain ⟨-, -, -, -, -, -, -, -, ⟨e0, e1⟩, -, -, -⟩ := idx_const t
  have e' : (((cfg0.win 9).blk t).view.emb (ix2 d e) : S1024x1024.Idx) = ix2 d e := funext fun a => Fin.ext (by
    match a with
    | ⟨0, _⟩ => show win0_9.index t (0 : Fin 2) * 1024 + 1 * d.val = d.val; omega
    | ⟨1, _⟩ => show win0_9.index t (1 : Fin 2) * 1024 + 1 * e.val = e.val; omega)
  rw [e']
  exact transpose_ix2_apply _ _ d e

theorem blk_mat10 (t : Fin cfg0.N) (d e : Fin 1024) : iblk m c 10 t (ix2 d e) = (m ((c : Thread nD τ).loc main_arg10)) (ix2 e d) := by
  unfold iblk
  rw [View.read_apply]
  show V m c main_v3 _ = _
  rw [V_main_v3]
  obtain ⟨-, -, -, -, -, -, -, -, -, ⟨e0, e1⟩, -, -⟩ := idx_const t
  have e' : (((cfg0.win 10).blk t).view.emb (ix2 d e) : S1024x1024.Idx) = ix2 d e := funext fun a => Fin.ext (by
    match a with
    | ⟨0, _⟩ => show win0_10.index t (0 : Fin 2) * 1024 + 1 * d.val = d.val; omega
    | ⟨1, _⟩ => show win0_10.index t (1 : Fin 2) * 1024 + 1 * e.val = e.val; omega)
  rw [e']
  exact transpose_ix2_apply _ _ d e

theorem blk_mat11 (t : Fin cfg0.N) (d e : Fin 1024) : iblk m c 11 t (ix2 d e) = (m ((c : Thread nD τ).loc main_arg11)) (ix2 e d) := by
  unfold iblk
  rw [View.read_apply]
  show V m c main_v5 _ = _
  rw [V_main_v5]
  obtain ⟨-, -, -, -, -, -, -, -, -, -, ⟨e0, e1⟩, -⟩ := idx_const t
  have e' : (((cfg0.win 11).blk t).view.emb (ix2 d e) : S1024x1024.Idx) = ix2 d e := funext fun a => Fin.ext (by
    match a with
    | ⟨0, _⟩ => show win0_11.index t (0 : Fin 2) * 1024 + 1 * d.val = d.val; omega
    | ⟨1, _⟩ => show win0_11.index t (1 : Fin 2) * 1024 + 1 * e.val = e.val; omega)
  rw [e']
  exact transpose_ix2_apply _ _ d e

theorem blk_mat12 (t : Fin cfg0.N) (d e : Fin 1024) : iblk m c 12 t (ix2 d e) = (m ((c : Thread nD τ).loc main_arg12)) (ix2 e d) := by
  unfold iblk
  rw [View.read_apply]
  show V m c main_v7 _ = _
  rw [V_main_v7]
  obtain ⟨-, -, -, -, -, -, -, -, -, -, -, ⟨e0, e1⟩⟩ := idx_const t
  have e' : (((cfg0.win 12).blk t).view.emb (ix2 d e) : S1024x1024.Idx) = ix2 d e := funext fun a => Fin.ext (by
    match a with
    | ⟨0, _⟩ => show win0_12.index t (0 : Fin 2) * 1024 + 1 * d.val = d.val; omega
    | ⟨1, _⟩ => show win0_12.index t (1 : Fin 2) * 1024 + 1 * e.val = e.val; omega)
  rw [e']
  exact transpose_ix2_apply _ _ d e

/-! ## The blocks as the token's parameters and the token -/

/-- Rows and matrices that read, entry by entry, as the argument arrays do are the argument arrays' parameters. -/
theorem params_of (x1 x2 x3 x4 x5 x6 x7 x8 : Blk.VRow) (x9 x10 x11 x12 : Blk.VMat)
    (h1 : ∀ d, x1 (ix2 0 d) = (m ((c : Thread nD τ).loc main_arg1)) (ix1 d)) (h2 : ∀ d, x2 (ix2 0 d) = (m ((c : Thread nD τ).loc main_arg2)) (ix1 d))
    (h3 : ∀ d, x3 (ix2 0 d) = (m ((c : Thread nD τ).loc main_arg3)) (ix1 d)) (h4 : ∀ d, x4 (ix2 0 d) = (m ((c : Thread nD τ).loc main_arg4)) (ix1 d))
    (h5 : ∀ d, x5 (ix2 0 d) = (m ((c : Thread nD τ).loc main_arg5)) (ix1 d)) (h6 : ∀ d, x6 (ix2 0 d) = (m ((c : Thread nD τ).loc main_arg6)) (ix3 0 0 d))
    (h7 : ∀ d, x7 (ix2 0 d) = (m ((c : Thread nD τ).loc main_arg7)) (ix3 0 0 d)) (h8 : ∀ d, x8 (ix2 0 d) = (m ((c : Thread nD τ).loc main_arg8)) (ix3 0 0 d))
    (h9 : ∀ d e, x9 (ix2 d e) = (m ((c : Thread nD τ).loc main_arg9)) (ix2 e d)) (h10 : ∀ d e, x10 (ix2 d e) = (m ((c : Thread nD τ).loc main_arg10)) (ix2 e d))
    (h11 : ∀ d e, x11 (ix2 d e) = (m ((c : Thread nD τ).loc main_arg11)) (ix2 e d)) (h12 : ∀ d e, x12 (ix2 d e) = (m ((c : Thread nD τ).loc main_arg12)) (ix2 e d)) :
    Blk.params x1 x2 x3 x4 x5 x6 x7 x8 x9 x10 x11 x12 = params m c :=
  params_ext (funext h1) (funext h2) (funext h3) (funext h4) (funext h5) (funext h6) (funext h7) (funext h8)
    (funext fun e => funext fun d => h9 d e) (funext fun e => funext fun d => h10 d e)
    (funext fun e => funext fun d => h11 d e) (funext fun e => funext fun d => h12 d e)

/-- At every grid point the loaded rows and matrices are the argument arrays' parameters. -/
theorem params_blk (t : Fin cfg0.N) :
    Blk.params (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) = params m c :=
  params_of m c (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t)
    (blk_row1 m c t) (blk_row2 m c t) (blk_row3 m c t) (blk_row4 m c t) (blk_row5 m c t) (blk_row6 m c t) (blk_row7 m c t) (blk_row8 m c t)
    (blk_mat9 m c t) (blk_mat10 m c t) (blk_mat11 m c t) (blk_mat12 m c t)

/-- A block whose rows read as tokens of the token array is, row by row, those tokens. -/
theorem row_of (x0 : Blk.VBlk) (r : Fin 256) (b : Fin 4) (tok : Fin 4096)
    (h : ∀ d, x0 (ix3 0 r d) = (m ((c : Thread nD τ).loc main_arg0)) (ix3 b tok d)) : Blk.row x0 r = row m c b tok :=
  funext h

/-- Row `r` of the loaded token block is the token it stands for. -/
theorem row_blk (t : Fin cfg0.N) (r : Fin 256) : Blk.row (iblk m c 0 t) r = row m c (bOf t) (tokOf t r) :=
  row_of m c (iblk m c 0 t) r (bOf t) (tokOf t r) (blk_tok m c t r)

end Cert.TimeMix.Krn

end
-- ==== Proof.KernelPieces.lean ====
/-
  The pieces each case of the kernel's body leaves in the outputs' blocks, read back as payload terms.

  At every grid point the body stores each output's block once, whole: the output block at every point, and the last
  token, the numerator and the denominator at the points that end a sequence (time-tile 15 of 16). A block that one
  store covers, read back, is that store's payload. The payload is a term in the input blocks alone: the loads it is
  built from read whole blocks that were just written with the inputs, so each load is its input.
-/
import proofs.«153176_j738734375125_1_alg».proof.Proof.Gen.KernelIdeal.Frame
import Idealize.ShloMosaic.Lib.Pipeline.Value
import Idealize.ShloMosaic.Lib.Tactic

noncomputable section

namespace Cert.KernelIdeal.Gen

open Idealize.ShloMosaic Idealize.ShloMosaic.TcCoe Idealize.ShloMosaic.Tactic Idealize.SL.Sem

variable {F : FTy → Type} [FloatOps F]

/-- The rank-3 origin as a constant function. -/
private theorem hz3 : (![0, 0, 0] : Fin 3 → Nat) = fun _ => 0 := funext fun a => by fin_cases a <;> rfl
/-- The rank-2 origin as a constant function. -/
private theorem hz2 : (![0, 0] : Fin 2 → Nat) = fun _ => 0 := funext fun a => by fin_cases a <;> rfl

/-! ## The pieces of each case -/

/-- Away from a sequence's end, the output block holds the one store that covers it: the gated quotient projected by the output matrix. -/
theorem piece_out_A (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1x256x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (hc0 : ¬cond0_0 i)
    (x0 : Vec F S1x256x1024 .f32) (x1 : Vec F S1x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1024x1024 .bf16) (x10 : Vec F S1024x1024 .bf16) (x11 : Vec F S1024x1024 .bf16) (x12 : Vec F S1024x1024 .bf16) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12
      = k0_pay1 (k0_pay18 (k0_pay7 x0 x1 x8) (k0_pay8 x0 x1 x6 x9) (k0_pay9 x0 x1 x7) (k0_pay10 x10) (constant S256x1024 .f32 0x00000000#32) x11 x5 x2 x3 x12) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x256x1024) hz3, View.ld_unit_zero (S := S1x1024) hz2, View.ld_unit_zero (S := S1024x1024) hz2]

/-- At a sequence's end, the output block holds the same store. -/
theorem piece_out_B (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1x256x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (hc0 : cond0_0 i)
    (x0 : Vec F S1x256x1024 .f32) (x1 : Vec F S1x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1024x1024 .bf16) (x10 : Vec F S1024x1024 .bf16) (x11 : Vec F S1024x1024 .bf16) (x12 : Vec F S1024x1024 .bf16) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12
      = k0_pay1 (k0_pay18 (k0_pay7 x0 x1 x8) (k0_pay8 x0 x1 x6 x9) (k0_pay9 x0 x1 x7) (k0_pay10 x10) (constant S256x1024 .f32 0x00000000#32) x11 x5 x2 x3 x12) := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x256x1024) hz3, View.ld_unit_zero (S := S1x1024) hz2, View.ld_unit_zero (S := S1024x1024) hz2]

/-- At a sequence's end, the last-token block holds the one store that covers it: the block's last row. -/
theorem piece_xlast_B (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1x256x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (hc0 : cond0_0 i)
    (x0 : Vec F S1x256x1024 .f32) (x1 : Vec F S1x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1024x1024 .bf16) (x10 : Vec F S1024x1024 .bf16) (x11 : Vec F S1024x1024 .bf16) (x12 : Vec F S1024x1024 .bf16) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12
      = k0_pay2 (k0_pay5 x0) := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x256x1024) hz3, View.ld_unit_zero (S := S1x1024) hz2, View.ld_unit_zero (S := S1024x1024) hz2]

/-- At a sequence's end, the numerator block holds the one store that covers it: the updated numerator of the last row. -/
theorem piece_num_B (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1x256x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (hc0 : cond0_0 i)
    (x0 : Vec F S1x256x1024 .f32) (x1 : Vec F S1x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1024x1024 .bf16) (x10 : Vec F S1024x1024 .bf16) (x11 : Vec F S1024x1024 .bf16) (x12 : Vec F S1024x1024 .bf16) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12
      = k0_pay3 (k0_pay16 (k0_pay8 x0 x1 x6 x9) (k0_pay9 x0 x1 x7) (k0_pay10 x10) (constant S256x1024 .f32 0x00000000#32) x4 x2) := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x256x1024) hz3, View.ld_unit_zero (S := S1x1024) hz2, View.ld_unit_zero (S := S1024x1024) hz2]

/-- At a sequence's end, the denominator block holds the one store that covers it: the updated denominator of the last row. -/
theorem piece_den_B (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1x256x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (hc0 : cond0_0 i)
    (x0 : Vec F S1x256x1024 .f32) (x1 : Vec F S1x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1024x1024 .bf16) (x10 : Vec F S1024x1024 .bf16) (x11 : Vec F S1024x1024 .bf16) (x12 : Vec F S1024x1024 .bf16) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12
      = k0_pay4 (k0_pay17 (k0_pay8 x0 x1 x6 x9) x4 x3) := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x256x1024) hz3, View.ld_unit_zero (S := S1x1024) hz2, View.ld_unit_zero (S := S1024x1024) hz2]

/-! ## What the outputs hold after a grid point -/

variable (m : (ℓ : Loc nD τ sig) → Buf (Elt F) ℓ)

/-- After any grid point the output block is the output payload of the point's input blocks. -/
theorem outs_out (c : Dev nD) (t : Fin cfg0.N) :
    (outsAt0 m c t.val t.isLt).1
      = k0_pay1 (k0_pay18 (k0_pay7 (iblk m c 0 t) (iblk m c 1 t) (iblk m c 8 t)) (k0_pay8 (iblk m c 0 t) (iblk m c 1 t) (iblk m c 6 t) (iblk m c 9 t)) (k0_pay9 (iblk m c 0 t) (iblk m c 1 t) (iblk m c 7 t)) (k0_pay10 (iblk m c 10 t)) (constant S256x1024 .f32 0x00000000#32) (iblk m c 11 t) (iblk m c 5 t) (iblk m c 2 t) (iblk m c 3 t) (iblk m c 12 t)) := by
  by_cases h0 : t.val % 16 = 15
  · have h := piece_out_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    rw [outsAt0_B m c t h0]
    dsimp only
    exact h
  · have h := piece_out_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    rw [outsAt0_A m c t h0]
    dsimp only
    exact h

/-- After a grid point that ends a sequence the last-token block is the last row of the point's input block. -/
theorem outs_xlast (c : Dev nD) (t : Fin cfg0.N) (h0 : t.val % 16 = 15) :
    (outsAt0 m c t.val t.isLt).2.1 = k0_pay2 (k0_pay5 (iblk m c 0 t)) := by
  have h := piece_xlast_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  rw [outsAt0_B m c t h0]
  dsimp only
  exact h

/-- After a grid point that ends a sequence the numerator block is the numerator payload of the point's input blocks. -/
theorem outs_num (c : Dev nD) (t : Fin cfg0.N) (h0 : t.val % 16 = 15) :
    (outsAt0 m c t.val t.isLt).2.2.1
      = k0_pay3 (k0_pay16 (k0_pay8 (iblk m c 0 t) (iblk m c 1 t) (iblk m c 6 t) (iblk m c 9 t)) (k0_pay9 (iblk m c 0 t) (iblk m c 1 t) (iblk m c 7 t)) (k0_pay10 (iblk m c 10 t)) (constant S256x1024 .f32 0x00000000#32) (iblk m c 4 t) (iblk m c 2 t)) := by
  have h := piece_num_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  rw [outsAt0_B m c t h0]
  dsimp only
  exact h

/-- After a grid point that ends a sequence the denominator block is the denominator payload of the point's input
    blocks. -/
theorem outs_den (c : Dev nD) (t : Fin cfg0.N) (h0 : t.val % 16 = 15) :
    (outsAt0 m c t.val t.isLt).2.2.2
      = k0_pay4 (k0_pay17 (k0_pay8 (iblk m c 0 t) (iblk m c 1 t) (iblk m c 6 t) (iblk m c 9 t)) (iblk m c 4 t) (iblk m c 3 t)) := by
  have h := piece_den_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  rw [outsAt0_B m c t h0]
  dsimp only
  exact h

end Cert.KernelIdeal.Gen

end
-- ==== Proof.KernelCover.lean ====
/-
  The output arrays are covered by the blocks the grid writes back, and the host's last lines flatten three of them.

  The grid is 4 × 16: point `t` is batch `t / 16`, time-tile `t % 16`. The output array, 4 × 4096 × 1024, is cut into
  blocks of 1 × 256 × 1024, block `(t / 16, t % 16, 0)` written back at every point, so index `(b, s, e)` lies in the
  block of point `16 b + s / 256`. Each of the three carried arrays, 4 × 1 × 1024, is cut into blocks of 1 × 1 × 1024,
  block `(t / 16, 0, 0)` written back at the points that end a sequence, `t % 16 = 15`, so index `(b, 0, e)` lies in
  the block of point `16 b + 15`. After the region the host flattens each carried array to 4 × 1024, and entry
  `(b, e)` of the flattened array is entry `(b, 0, e)` of the array.
-/
import proofs.«153176_j738734375125_1_alg».proof.Proof.Gen.KernelIdeal.Frame
import Idealize.ShloMosaic.Lib.Pipeline.Value
import Idealize.ShloMosaic.Lib.ValueLayout
import Idealize.ShloMosaic.Lib.ValueIdx
import Idealize.ShloMosaic.Lib.StableHlo.Run

noncomputable section

namespace Cert.KernelIdeal.Gen

open Idealize.ShloMosaic Idealize.ShloMosaic.TcCoe Idealize.SL.Sem
open Idealize.ShloMosaic.Pipeline (Dat)

variable {F : FTy → Type} [FloatOps F] (m : (ℓ : Loc nD τ sig) → Buf (Elt F) ℓ)

/-! ## The covers -/

/-- Window 13's block index at a grid point: the batch, the time-tile, zero. Decided over the 64 points. -/
private theorem idx13 : ∀ t : Fin cfg0.N, win0_13.index t (0 : Fin 3) = t.val / 16 ∧ win0_13.index t (1 : Fin 3) = t.val % 16
    ∧ win0_13.index t (2 : Fin 3) = 0 :=
  (by decide +kernel : ∀ t : Fin grid0.N, _)

/-- An index of the output array is in point `t`'s block iff each coordinate is in the block's range on its axis. -/
private theorem mem_blk13 (t : Fin cfg0.N) (i : S4x4096x1024.Idx) :
    i ∈ ((cfg0.win 13).blk t).view.set ↔ ∀ a : Fin 3, win0_13.index t a * S1x256x1024.size a ≤ (i a).val
      ∧ (i a).val < win0_13.index t a * S1x256x1024.size a + S1x256x1024.size a := by
  show i ∈ ((View.whole main_v16_0).slice (win0_13.rect t)).set ↔ _
  rw [View.set_slice_whole, Rect.mem_set_unit]
  exact Iff.rfl

/-- Every index `(b, s, e)` of the output array lies in the block of point `t = 16 b + s / 256`, and every point
    writes its block back. -/
theorem cover_out (i : S4x4096x1024.Idx) :
    ∃ t : Fin cfg0.N, (cfg0.win 13).flush t = true ∧ i ∈ ((cfg0.win 13).blk t).view.set := by
  have hN : cfg0.N = 64 := N_0
  have h0 : (i 0).val < 4 := (i 0).isLt
  have h1 : (i 1).val < 4096 := (i 1).isLt
  have h2 : (i 2).val < 1024 := (i 2).isLt
  obtain ⟨t, ht⟩ : ∃ t : Fin cfg0.N, t.val = 16 * (i 0).val + (i 1).val / 256 :=
    ⟨⟨16 * (i 0).val + (i 1).val / 256, by rw [hN]; omega⟩, rfl⟩
  obtain ⟨e0, e1, e2⟩ := idx13 t
  refine ⟨t, flush0_13 t, ?_⟩
  rw [mem_blk13]
  intro a
  match a with
  | ⟨0, _⟩ =>
    show win0_13.index t (0 : Fin 3) * 1 ≤ (i 0).val ∧ (i 0).val < win0_13.index t (0 : Fin 3) * 1 + 1
    omega
  | ⟨1, _⟩ =>
    show win0_13.index t (1 : Fin 3) * 256 ≤ (i 1).val ∧ (i 1).val < win0_13.index t (1 : Fin 3) * 256 + 256
    omega
  | ⟨2, _⟩ =>
    show win0_13.index t (2 : Fin 3) * 1024 ≤ (i 2).val ∧ (i 2).val < win0_13.index t (2 : Fin 3) * 1024 + 1024
    omega

/-- Window 14's block index at a grid point: the batch, then zero twice. Decided over the 64 points. -/
private theorem idx14 : ∀ t : Fin cfg0.N, win0_14.index t (0 : Fin 3) = t.val / 16 ∧ win0_14.index t (1 : Fin 3) = 0
    ∧ win0_14.index t (2 : Fin 3) = 0 :=
  (by decide +kernel : ∀ t : Fin grid0.N, _)

/-- An index of window 14's array is in point `t`'s block iff each coordinate is in the block's range on its axis. -/
private theorem mem_blk14 (t : Fin cfg0.N) (i : S4x1x1024.Idx) :
    i ∈ ((cfg0.win 14).blk t).view.set ↔ ∀ a : Fin 3, win0_14.index t a * S1x1x1024.size a ≤ (i a).val
      ∧ (i a).val < win0_14.index t a * S1x1x1024.size a + S1x1x1024.size a := by
  show i ∈ ((View.whole main_v16_1).slice (win0_14.rect t)).set ↔ _
  rw [View.set_slice_whole, Rect.mem_set_unit]
  exact Iff.rfl

/-- Every index `(b, 0, e)` of window 14's array lies in the block of the point that ends batch `b`'s sequence,
    `t = 16 b + 15`, and that point writes the block back. -/
theorem cover_carry14 (i : S4x1x1024.Idx) :
    ∃ t : Fin cfg0.N, (cfg0.win 14).flush t = true ∧ i ∈ ((cfg0.win 14).blk t).view.set := by
  have hN : cfg0.N = 64 := N_0
  have h0 : (i 0).val < 4 := (i 0).isLt
  have h1 : (i 1).val < 1 := (i 1).isLt
  have h2 : (i 2).val < 1024 := (i 2).isLt
  obtain ⟨t, ht⟩ : ∃ t : Fin cfg0.N, t.val = 16 * (i 0).val + 15 :=
    ⟨⟨16 * (i 0).val + 15, by rw [hN]; omega⟩, rfl⟩
  obtain ⟨e0, e1, e2⟩ := idx14 t
  refine ⟨t, (flush0_14 t).mpr (by omega), ?_⟩
  rw [mem_blk14]
  intro a
  match a with
  | ⟨0, _⟩ =>
    show win0_14.index t (0 : Fin 3) * 1 ≤ (i 0).val ∧ (i 0).val < win0_14.index t (0 : Fin 3) * 1 + 1
    omega
  | ⟨1, _⟩ =>
    show win0_14.index t (1 : Fin 3) * 1 ≤ (i 1).val ∧ (i 1).val < win0_14.index t (1 : Fin 3) * 1 + 1
    omega
  | ⟨2, _⟩ =>
    show win0_14.index t (2 : Fin 3) * 1024 ≤ (i 2).val ∧ (i 2).val < win0_14.index t (2 : Fin 3) * 1024 + 1024
    omega

/-- Window 15's block index at a grid point: the batch, then zero twice. Decided over the 64 points. -/
private theorem idx15 : ∀ t : Fin cfg0.N, win0_15.index t (0 : Fin 3) = t.val / 16 ∧ win0_15.index t (1 : Fin 3) = 0
    ∧ win0_15.index t (2 : Fin 3) = 0 :=
  (by decide +kernel : ∀ t : Fin grid0.N, _)

/-- An index of window 15's array is in point `t`'s block iff each coordinate is in the block's range on its axis. -/
private theorem mem_blk15 (t : Fin cfg0.N) (i : S4x1x1024.Idx) :
    i ∈ ((cfg0.win 15).blk t).view.set ↔ ∀ a : Fin 3, win0_15.index t a * S1x1x1024.size a ≤ (i a).val
      ∧ (i a).val < win0_15.index t a * S1x1x1024.size a + S1x1x1024.size a := by
  show i ∈ ((View.whole main_v16_2).slice (win0_15.rect t)).set ↔ _
  rw [View.set_slice_whole, Rect.mem_set_unit]
  exact Iff.rfl

/-- Every index `(b, 0, e)` of window 15's array lies in the block of the point that ends batch `b`'s sequence,
    `t = 16 b + 15`, and that point writes the block back. -/
theorem cover_carry15 (i : S4x1x1024.Idx) :
    ∃ t : Fin cfg0.N, (cfg0.win 15).flush t = true ∧ i ∈ ((cfg0.win 15).blk t).view.set := by
  have hN : cfg0.N = 64 := N_0
  have h0 : (i 0).val < 4 := (i 0).isLt
  have h1 : (i 1).val < 1 := (i 1).isLt
  have h2 : (i 2).val < 1024 := (i 2).isLt
  obtain ⟨t, ht⟩ : ∃ t : Fin cfg0.N, t.val = 16 * (i 0).val + 15 :=
    ⟨⟨16 * (i 0).val + 15, by rw [hN]; omega⟩, rfl⟩
  obtain ⟨e0, e1, e2⟩ := idx15 t
  refine ⟨t, (flush0_15 t).mpr (by omega), ?_⟩
  rw [mem_blk15]
  intro a
  match a with
  | ⟨0, _⟩ =>
    show win0_15.index t (0 : Fin 3) * 1 ≤ (i 0).val ∧ (i 0).val < win0_15.index t (0 : Fin 3) * 1 + 1
    omega
  | ⟨1, _⟩ =>
    show win0_15.index t (1 : Fin 3) * 1 ≤ (i 1).val ∧ (i 1).val < win0_15.index t (1 : Fin 3) * 1 + 1
    omega
  | ⟨2, _⟩ =>
    show win0_15.index t (2 : Fin 3) * 1024 ≤ (i 2).val ∧ (i 2).val < win0_15.index t (2 : Fin 3) * 1024 + 1024
    omega

/-- Window 16's block index at a grid point: the batch, then zero twice. Decided over the 64 points. -/
private theorem idx16 : ∀ t : Fin cfg0.N, win0_16.index t (0 : Fin 3) = t.val / 16 ∧ win0_16.index t (1 : Fin 3) = 0
    ∧ win0_16.index t (2 : Fin 3) = 0 :=
  (by decide +kernel : ∀ t : Fin grid0.N, _)

/-- An index of window 16's array is in point `t`'s block iff each coordinate is in the block's range on its axis. -/
private theorem mem_blk16 (t : Fin cfg0.N) (i : S4x1x1024.Idx) :
    i ∈ ((cfg0.win 16).blk t).view.set ↔ ∀ a : Fin 3, win0_16.index t a * S1x1x1024.size a ≤ (i a).val
      ∧ (i a).val < win0_16.index t a * S1x1x1024.size a + S1x1x1024.size a := by
  show i ∈ ((View.whole main_v16_3).slice (win0_16.rect t)).set ↔ _
  rw [View.set_slice_whole, Rect.mem_set_unit]
  exact Iff.rfl

/-- Every index `(b, 0, e)` of window 16's array lies in the block of the point that ends batch `b`'s sequence,
    `t = 16 b + 15`, and that point writes the block back. -/
theorem cover_carry16 (i : S4x1x1024.Idx) :
    ∃ t : Fin cfg0.N, (cfg0.win 16).flush t = true ∧ i ∈ ((cfg0.win 16).blk t).view.set := by
  have hN : cfg0.N = 64 := N_0
  have h0 : (i 0).val < 4 := (i 0).isLt
  have h1 : (i 1).val < 1 := (i 1).isLt
  have h2 : (i 2).val < 1024 := (i 2).isLt
  obtain ⟨t, ht⟩ : ∃ t : Fin cfg0.N, t.val = 16 * (i 0).val + 15 :=
    ⟨⟨16 * (i 0).val + 15, by rw [hN]; omega⟩, rfl⟩
  obtain ⟨e0, e1, e2⟩ := idx16 t
  refine ⟨t, (flush0_16 t).mpr (by omega), ?_⟩
  rw [mem_blk16]
  intro a
  match a with
  | ⟨0, _⟩ =>
    show win0_16.index t (0 : Fin 3) * 1 ≤ (i 0).val ∧ (i 0).val < win0_16.index t (0 : Fin 3) * 1 + 1
    omega
  | ⟨1, _⟩ =>
    show win0_16.index t (1 : Fin 3) * 1 ≤ (i 1).val ∧ (i 1).val < win0_16.index t (1 : Fin 3) * 1 + 1
    omega
  | ⟨2, _⟩ =>
    show win0_16.index t (2 : Fin 3) * 1024 ≤ (i 2).val ∧ (i 2).val < win0_16.index t (2 : Fin 3) * 1024 + 1024
    omega

/-! ## The host's last lines -/

/-- After the host's last lines, `main_v17` is the array the region left in window 14, flattened to 4 × 1024: the
    lines after it write other arrays, and the array it flattens is window 14's. -/
theorem tail17 (c : Dev nD) :
    Pipeline.afterTail₀ cfgs (dats m) 0 (V0 m) [hostOps1] c main_v17
      = shapeCast S4x1024 ((dats m 0 c).arrAt 14 cfg0.N) shapeCasts_S4x1x1024_S4x1024 := by
  unfold Pipeline.afterTail₀
  show StableHlo.after hostOps1 _ (Proc.devRef .tc main_v17) = _
  after_results
  have hA : Pipeline.withArrays (cfgs 0).spec c (V0 m c) (fun w => (dats m 0 c).arrAt w (cfgs 0).N)
      (Proc.devRef .tc main_v16_1) = (dats m 0 c).arrAt 14 cfg0.N :=
    Pipeline.withArrays_arr spec0 launch0.win.arr_inj c (V0 m c) (fun w => (dats m 0 c).arrAt w (cfgs 0).N) 14
  rw [hA]
  generalize (dats m 0 c).arrAt 14 cfg0.N = A
  rfl

/-- After the host's last lines, `main_v18` is the array the region left in window 15, flattened to 4 × 1024: the
    lines after it write other arrays, and the array it flattens is window 15's. -/
theorem tail18 (c : Dev nD) :
    Pipeline.afterTail₀ cfgs (dats m) 0 (V0 m) [hostOps1] c main_v18
      = shapeCast S4x1024 ((dats m 0 c).arrAt 15 cfg0.N) shapeCasts_S4x1x1024_S4x1024 := by
  unfold Pipeline.afterTail₀
  show StableHlo.after hostOps1 _ (Proc.devRef .tc main_v18) = _
  after_results
  have hA : Pipeline.withArrays (cfgs 0).spec c (V0 m c) (fun w => (dats m 0 c).arrAt w (cfgs 0).N)
      (Proc.devRef .tc main_v16_2) = (dats m 0 c).arrAt 15 cfg0.N :=
    Pipeline.withArrays_arr spec0 launch0.win.arr_inj c (V0 m c) (fun w => (dats m 0 c).arrAt w (cfgs 0).N) 15
  rw [hA]
  generalize (dats m 0 c).arrAt 15 cfg0.N = A
  rfl

/-- After the host's last lines, `main_v19` is the array the region left in window 16, flattened to 4 × 1024: the
    lines after it write other arrays, and the array it flattens is window 16's. -/
theorem tail19 (c : Dev nD) :
    Pipeline.afterTail₀ cfgs (dats m) 0 (V0 m) [hostOps1] c main_v19
      = shapeCast S4x1024 ((dats m 0 c).arrAt 16 cfg0.N) shapeCasts_S4x1x1024_S4x1024 := by
  unfold Pipeline.afterTail₀
  show StableHlo.after hostOps1 _ (Proc.devRef .tc main_v19) = _
  after_results
  have hA : Pipeline.withArrays (cfgs 0).spec c (V0 m c) (fun w => (dats m 0 c).arrAt w (cfgs 0).N)
      (Proc.devRef .tc main_v16_3) = (dats m 0 c).arrAt 16 cfg0.N :=
    Pipeline.withArrays_arr spec0 launch0.win.arr_inj c (V0 m c) (fun w => (dats m 0 c).arrAt w (cfgs 0).N) 16
  rw [hA]
  generalize (dats m 0 c).arrAt 16 cfg0.N = A
  rfl

/-! ## A flattened entry -/

/-- Entry `(b, e)` of a 4 × 1 × 1024 array flattened to 4 × 1024 is its entry `(b, 0, e)`: the two have the same
    row-major position `1024 b + e`. -/
theorem squeeze_at {α : Type} (X : S4x1x1024.Idx → α) (b : Fin 4) (e : Fin 1024) :
    shapeCast S4x1024 X shapeCasts_S4x1x1024_S4x1024 (ValueIdx.ix2 b e) = X (ValueIdx.ix3 b (0 : Fin 1) e) :=
  shapeCast_apply X shapeCasts_S4x1x1024_S4x1024 _ _ (by
    rw [Shape.rowMajor_val_three, Shape.rowMajor_val_two]
    show (b.val * 1 + 0) * 1024 + e.val = b.val * 1024 + e.val
    omega)

end Cert.KernelIdeal.Gen

end
-- ==== Proof.KernelFinal.lean ====
/-
  The kernel's four results as functions of the argument arrays.

  Grid point `t` writes back the output block of its 256 tokens: entry `(0, r, e)` is the output of token
  `256 · (t mod 16) + r` of batch `t / 16` at `e`, so the 64 blocks together are the whole output array, entry
  `(b, s, e)` the output of token `(b, s)`. The three carried arrays are written back only at the last time tile of
  each batch (`t mod 16 = 15`), whose last row is token 4095: entry `(b, 0, e)` is the token, the updated numerator and
  the updated denominator of token `(b, 4095)` at `e`. After the call the host drops the unit axis of the three.
-/
import proofs.«153176_j738734375125_1_alg».proof.Proof.Gen.KernelIdeal.Frame
import proofs.«153176_j738734375125_1_alg».proof.Proof.KernelReads
import proofs.«153176_j738734375125_1_alg».proof.Proof.KernelPieces
import proofs.«153176_j738734375125_1_alg».proof.Proof.KernelCover
import Idealize.ShloMosaic.Lib.Pipeline.Value
import Idealize.ShloMosaic.Lib.StableHlo.Run

noncomputable section

namespace Cert.TimeMix.Krn

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The result arrays -/

/-- The output array: entry `(b, s, e)` is the output of token `(b, s)` at `e`. -/
def outArr (c : Dev nD) : S4x4096x1024.Idx → EReal := fun i => out (params m c) (row m c (i 0) (i 1)) (i 2)

/-- The carried token, with its unit axis: token `(b, 4095)`. -/
def xlast3 (c : Dev nD) : S4x1x1024.Idx → EReal := fun i => (m ((c : Thread nD τ).loc main_arg0)) (ix3 (i 0) (4095 : Fin 4096) (i 2))

/-- The carried numerator, with its unit axis: that of token `(b, 4095)`. -/
def num3 (c : Dev nD) : S4x1x1024.Idx → EReal := fun i => num (params m c) (row m c (i 0) (4095 : Fin 4096)) (i 2)

/-- The carried denominator, with its unit axis: that of token `(b, 4095)`. -/
def den3 (c : Dev nD) : S4x1x1024.Idx → EReal := fun i => den (params m c) (row m c (i 0) (4095 : Fin 4096)) (i 2)

/-! ## Where a block's entry sits in its array -/

theorem emb_out (t : Fin cfg0.N) (r : Fin 256) (e : Fin 1024) :
    (((cfg0.win 13).blk t).view.emb (ix3 (0 : Fin 1) r e) : S4x4096x1024.Idx) = ix3 (bOf t) (tokOf t r) e :=
  funext fun a => Fin.ext (by
    obtain ⟨-, e0, e1, e2⟩ := idx_tok t
    match a with
    | ⟨0, _⟩ => show win0_13.index t (0 : Fin 3) * 1 + 1 * 0 = t.val / 16; omega
    | ⟨1, _⟩ => show win0_13.index t (1 : Fin 3) * 256 + 1 * r.val = 256 * (t.val % 16) + r.val; omega
    | ⟨2, _⟩ => show win0_13.index t (2 : Fin 3) * 1024 + 1 * e.val = e.val; omega)

theorem emb_carry14 (t : Fin cfg0.N) (e : Fin 1024) :
    (((cfg0.win 14).blk t).view.emb (ix3 (0 : Fin 1) (0 : Fin 1) e) : S4x1x1024.Idx) = ix3 (bOf t) (0 : Fin 1) e :=
  funext fun a => Fin.ext (by
    obtain ⟨⟨e0, e1, e2⟩, -, -⟩ := idx_carry t
    match a with
    | ⟨0, _⟩ => show win0_14.index t (0 : Fin 3) * 1 + 1 * 0 = t.val / 16; omega
    | ⟨1, _⟩ => show win0_14.index t (1 : Fin 3) * 1 + 1 * 0 = 0; omega
    | ⟨2, _⟩ => show win0_14.index t (2 : Fin 3) * 1024 + 1 * e.val = e.val; omega)

theorem emb_carry15 (t : Fin cfg0.N) (e : Fin 1024) :
    (((cfg0.win 15).blk t).view.emb (ix3 (0 : Fin 1) (0 : Fin 1) e) : S4x1x1024.Idx) = ix3 (bOf t) (0 : Fin 1) e :=
  funext fun a => Fin.ext (by
    obtain ⟨-, ⟨e0, e1, e2⟩, -⟩ := idx_carry t
    match a with
    | ⟨0, _⟩ => show win0_15.index t (0 : Fin 3) * 1 + 1 * 0 = t.val / 16; omega
    | ⟨1, _⟩ => show win0_15.index t (1 : Fin 3) * 1 + 1 * 0 = 0; omega
    | ⟨2, _⟩ => show win0_15.index t (2 : Fin 3) * 1024 + 1 * e.val = e.val; omega)

theorem emb_carry16 (t : Fin cfg0.N) (e : Fin 1024) :
    (((cfg0.win 16).blk t).view.emb (ix3 (0 : Fin 1) (0 : Fin 1) e) : S4x1x1024.Idx) = ix3 (bOf t) (0 : Fin 1) e :=
  funext fun a => Fin.ext (by
    obtain ⟨-, -, ⟨e0, e1, e2⟩⟩ := idx_carry t
    match a with
    | ⟨0, _⟩ => show win0_16.index t (0 : Fin 3) * 1 + 1 * 0 = t.val / 16; omega
    | ⟨1, _⟩ => show win0_16.index t (1 : Fin 3) * 1 + 1 * 0 = 0; omega
    | ⟨2, _⟩ => show win0_16.index t (2 : Fin 3) * 1024 + 1 * e.val = e.val; omega)

/-- At the last time tile of a batch, the block's last row is token 4095. -/
theorem tok_last (t : Fin cfg0.N) (h0 : t.val % 16 = 15) : tokOf t (255 : Fin 256) = (4095 : Fin 4096) :=
  Fin.ext (by show 256 * (t.val % 16) + 255 = 4095; omega)

/-! ## What each point writes back -/

/-- Point `t` writes back its block of the output array. -/
theorem flushed_out (c : Dev nD) (t : Fin cfg0.N) :
    (dats m 0 c).flushed 13 t = ((cfg0.win 13).blk t).view.read (Elt Ideal) (outArr m c) := by
  show (cfg0.win 13).cut (grid0.coords t) ((dats m 0 c).after 13 t) = _
  rw [after0_13, outs_out m c t]
  funext j
  obtain ⟨u, r, e, rfl⟩ : ∃ (u : Fin 1) (r : Fin 256) (e : Fin 1024), j = ix3 u r e := ⟨j 0, j 1, j 2, eq_ix3 j⟩
  obtain rfl : u = 0 := Subsingleton.elim _ _
  have hb := Blk.out_store_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r e
  rw [params_blk m c t, row_blk m c t r] at hb
  rw [View.read_apply]
  show _ = outArr m c (((cfg0.win 13).blk t).view.emb (ix3 (0 : Fin 1) r e))
  rw [emb_out]
  exact hb

/-- At the last time tile of a batch, point `t` writes back the carried token of its batch. -/
theorem flushed_xlast (c : Dev nD) (t : Fin cfg0.N) (hf : (cfg0.win 14).flush t = true) :
    (dats m 0 c).flushed 14 t = ((cfg0.win 14).blk t).view.read (Elt Ideal) (xlast3 m c) := by
  have h0 : t.val % 16 = 15 := (flush0_14 t).mp hf
  show (cfg0.win 14).cut (grid0.coords t) ((dats m 0 c).after 14 t) = _
  rw [after0_14, outs_xlast m c t h0]
  funext j
  obtain ⟨u, v, e, rfl⟩ : ∃ (u : Fin 1) (v : Fin 1) (e : Fin 1024), j = ix3 u v e := ⟨j 0, j 1, j 2, eq_ix3 j⟩
  obtain rfl : u = 0 := Subsingleton.elim _ _
  obtain rfl : v = 0 := Subsingleton.elim _ _
  have hb := Blk.xlast_store_at (iblk m c 0 t) e
  rw [blk_tok m c t (255 : Fin 256) e, tok_last t h0] at hb
  rw [View.read_apply]
  show _ = xlast3 m c (((cfg0.win 14).blk t).view.emb (ix3 (0 : Fin 1) (0 : Fin 1) e))
  rw [emb_carry14]
  exact hb

/-- At the last time tile of a batch, point `t` writes back the carried numerator of its batch. -/
theorem flushed_num (c : Dev nD) (t : Fin cfg0.N) (hf : (cfg0.win 15).flush t = true) :
    (dats m 0 c).flushed 15 t = ((cfg0.win 15).blk t).view.read (Elt Ideal) (num3 m c) := by
  have h0 : t.val % 16 = 15 := (flush0_15 t).mp hf
  show (cfg0.win 15).cut (grid0.coords t) ((dats m 0 c).after 15 t) = _
  rw [after0_15, outs_num m c t h0]
  funext j
  obtain ⟨u, v, e, rfl⟩ : ∃ (u : Fin 1) (v : Fin 1) (e : Fin 1024), j = ix3 u v e := ⟨j 0, j 1, j 2, eq_ix3 j⟩
  obtain rfl : u = 0 := Subsingleton.elim _ _
  obtain rfl : v = 0 := Subsingleton.elim _ _
  have hb := Blk.num_store_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) e
  rw [params_blk m c t, row_blk m c t (255 : Fin 256), tok_last t h0] at hb
  rw [View.read_apply]
  show _ = num3 m c (((cfg0.win 15).blk t).view.emb (ix3 (0 : Fin 1) (0 : Fin 1) e))
  rw [emb_carry15]
  exact hb

/-- At the last time tile of a batch, point `t` writes back the carried denominator of its batch. -/
theorem flushed_den (c : Dev nD) (t : Fin cfg0.N) (hf : (cfg0.win 16).flush t = true) :
    (dats m 0 c).flushed 16 t = ((cfg0.win 16).blk t).view.read (Elt Ideal) (den3 m c) := by
  have h0 : t.val % 16 = 15 := (flush0_16 t).mp hf
  show (cfg0.win 16).cut (grid0.coords t) ((dats m 0 c).after 16 t) = _
  rw [after0_16, outs_den m c t h0]
  funext j
  obtain ⟨u, v, e, rfl⟩ : ∃ (u : Fin 1) (v : Fin 1) (e : Fin 1024), j = ix3 u v e := ⟨j 0, j 1, j 2, eq_ix3 j⟩
  obtain rfl : u = 0 := Subsingleton.elim _ _
  obtain rfl : v = 0 := Subsingleton.elim _ _
  have hb := Blk.den_store_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) e
  rw [params_blk m c t, row_blk m c t (255 : Fin 256), tok_last t h0] at hb
  rw [View.read_apply]
  show _ = den3 m c (((cfg0.win 16).blk t).view.emb (ix3 (0 : Fin 1) (0 : Fin 1) e))
  rw [emb_carry16]
  exact hb

/-! ## The arrays the region leaves -/

/-- The output array after the run. -/
theorem final_out (c : Dev nD) : (dats m 0 c).arrAt 13 cfg0.N = outArr m c :=
  (dats m 0 c).arrAt_eq_of_cover 13 (outArr m c) (fun t _ => flushed_out m c t) cover_out

theorem final_xlast (c : Dev nD) : (dats m 0 c).arrAt 14 cfg0.N = xlast3 m c :=
  (dats m 0 c).arrAt_eq_of_cover 14 (xlast3 m c) (flushed_xlast m c) cover_carry14

theorem final_num (c : Dev nD) : (dats m 0 c).arrAt 15 cfg0.N = num3 m c :=
  (dats m 0 c).arrAt_eq_of_cover 15 (num3 m c) (flushed_num m c) cover_carry15

theorem final_den (c : Dev nD) : (dats m 0 c).arrAt 16 cfg0.N = den3 m c :=
  (dats m 0 c).arrAt_eq_of_cover 16 (den3 m c) (flushed_den m c) cover_carry16

/-! ## The results after the host drops the unit axis -/

/-- The carried token as returned: token `(b, 4095)`. -/
def xlastArr (c : Dev nD) : S4x1024.Idx → EReal := fun i => (m ((c : Thread nD τ).loc main_arg0)) (ix3 (i 0) (4095 : Fin 4096) (i 1))

/-- The carried numerator as returned. -/
def numArr (c : Dev nD) : S4x1024.Idx → EReal := fun i => num (params m c) (row m c (i 0) (4095 : Fin 4096)) (i 1)

/-- The carried denominator as returned. -/
def denArr (c : Dev nD) : S4x1024.Idx → EReal := fun i => den (params m c) (row m c (i 0) (4095 : Fin 4096)) (i 1)

theorem result_xlast (c : Dev nD) :
    Pipeline.afterTail₀ cfgs (dats m) 0 (V0 m) [hostOps1] c main_v17 = xlastArr m c := by
  rw [tail17 m c, final_xlast m c]
  funext i
  obtain ⟨b, e, rfl⟩ : ∃ (b : Fin 4) (e : Fin 1024), i = ix2 b e := ⟨i 0, i 1, eq_ix2 i⟩
  exact squeeze_at (xlast3 m c) b e

theorem result_num (c : Dev nD) :
    Pipeline.afterTail₀ cfgs (dats m) 0 (V0 m) [hostOps1] c main_v18 = numArr m c := by
  rw [tail18 m c, final_num m c]
  funext i
  obtain ⟨b, e, rfl⟩ : ∃ (b : Fin 4) (e : Fin 1024), i = ix2 b e := ⟨i 0, i 1, eq_ix2 i⟩
  exact squeeze_at (num3 m c) b e

theorem result_den (c : Dev nD) :
    Pipeline.afterTail₀ cfgs (dats m) 0 (V0 m) [hostOps1] c main_v19 = denArr m c := by
  rw [tail19 m c, final_den m c]
  funext i
  obtain ⟨b, e, rfl⟩ : ∃ (b : Fin 4) (e : Fin 1024), i = ix2 b e := ⟨i 0, i 1, eq_ix2 i⟩
  exact squeeze_at (den3 m c) b e

/-! ## The kernel's run, read -/

/-- Every weakly fair execution of the idealized kernel terminates with the four results at these functions of the
    argument arrays and the arguments unchanged. -/
theorem run : θ_run defs (onTc (τ := τ) (main (F := Ideal))) ⟨m, fun _ => 0, ρ⟩ (fun r => ∀ c : Dev nD,
      r.2.mem ((c.tc : Thread nD τ).loc main_v16_0) = outArr m c
      ∧ r.2.mem ((c.tc : Thread nD τ).loc main_v17) = xlastArr m c
      ∧ r.2.mem ((c.tc : Thread nD τ).loc main_v18) = numArr m c
      ∧ r.2.mem ((c.tc : Thread nD τ).loc main_v19) = denArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 13).trans (final_out m c),
      ((h c).2 main_v17 (Pipeline.mem_restRefs_of main_v17 (by decide) (by decide))).trans (result_xlast m c),
      ((h c).2 main_v18 (Pipeline.mem_restRefs_of main_v18 (by decide) (by decide))).trans (result_num m c),
      ((h c).2 main_v19 (Pipeline.mem_restRefs_of main_v19 (by decide) (by decide))).trans (result_den m c),
      ((h c).1 0).trans ((((dats m 0 c).arrAt_in 0 rfl _).trans ((A_eq m c 0).trans (V_main_arg0 m c)))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩) (run_main m ρ)

end Cert.TimeMix.Krn

end
-- ==== Proof.RefRows.lean ====
/-
  The reference's four results, read entry by entry as one token of time-mixing.

  The reference is a straight line of array operations. Read at one index, each of them is an arithmetic operation on
  the same index of its operands, a repetition of a row over the tokens, or a contraction of a token against a matrix.
  Going down the line, entry `e` of token `(b, t)` of the key, the value, the receptance, the WKV quotient, the gated
  quotient, the output, the numerator and the denominator are the functions of TimeMixSpec.lean applied to the
  parameters the argument arrays hold and to token `(b, t)` of the input. The last three results are the input, the
  numerator and the denominator at the last token, `t = 4095`.
-/
import proofs.«153176_j738734375125_1_alg».proof.Proof.Gen.ReferenceIdeal.Read
import proofs.«153176_j738734375125_1_alg».proof.Proof.TimeMixSpec
import Idealize.ShloMosaic.Lib.ValueIdx
import Idealize.ShloMosaic.Lib.Pipeline.Value
import Idealize.ShloMosaic.Lib.IdealHost

noncomputable section

namespace Cert.TimeMix.Ref

open Idealize.ShloMosaic Idealize.ShloMosaic.ValueIdx Cert.ReferenceIdeal Cert.ReferenceIdeal.Read

/-- a row of 1024 entries -/
abbrev C1 : Type := (⟨S1024, .f32⟩ : BufTy).Contents (Elt Ideal)
/-- a row of 1024 entries held as a 1 × 1 × 1024 array -/
abbrev C3 : Type := (⟨S1x1x1024, .f32⟩ : BufTy).Contents (Elt Ideal)
/-- a 1024 × 1024 matrix -/
abbrev CW : Type := (⟨S1024x1024, .f32⟩ : BufTy).Contents (Elt Ideal)
/-- the 4 × 4096 tokens of 1024 entries -/
abbrev CX : Type := (⟨S4x4096x1024, .f32⟩ : BufTy).Contents (Elt Ideal)

/-! ## The three interpolations and projections, and the rows repeated over the tokens -/

/-- The token interpolated for the key, entry `k` of token `(b, t)`. -/
theorem mixK_at (x0 : CX) (x1 : C1) (x6 : C3) (b : Fin 4) (t : Fin 4096) (k : Fin 1024) :
    val_main_v7 (F := Ideal) x0 x1 x6 (ix3 b t k)
      = Cert.TimeMix.lerp (x0 (ix3 b t k)) (x6 (ix3 0 0 k)) (x1 (ix1 k)) := by
  rw [val_main_v7_apply, val_main_v1_apply, val_main_v0_apply, val_main_v6_apply, val_main_v5_apply,
    val_main_v4_apply, val_main_v3_apply, val_main_v2_apply, val_main_cst_apply]
  have e0 : idx_main_v0 (ix3 b t k) = ix3 0 0 k :=
    funext fun a => Fin.ext (by match a with | ⟨0, _⟩ => rfl | ⟨1, _⟩ => rfl | ⟨2, _⟩ => rfl)
  have e6 : idx_main_v6 (ix3 b t k) = ix3 0 0 k :=
    funext fun a => Fin.ext (by match a with | ⟨0, _⟩ => rfl | ⟨1, _⟩ => rfl | ⟨2, _⟩ => rfl)
  have e4 : idx_main_v4 (ix3 (0 : Fin 1) (0 : Fin 1) k) = ix1 k :=
    funext fun a => Fin.ext (by match a with | ⟨0, _⟩ => rfl)
  rw [e0, e6, e4]
  simp only [Ideal.addf_def, Ideal.mulf_def, Ideal.subf_def, Ideal.ofBits_def, Ideal.hostDivf_def,
    Ideal.hostUnary_exp_def, Ideal.hostNegf_def, Ideal.negf_def]
  rfl

/-- The token interpolated for the value, entry `k` of token `(b, t)`. -/
theorem mixV_at (x0 : CX) (x1 : C1) (x7 : C3) (b : Fin 4) (t : Fin 4096) (k : Fin 1024) :
    val_main_v16 (F := Ideal) x0 x1 x7 (ix3 b t k)
      = Cert.TimeMix.lerp (x0 (ix3 b t k)) (x7 (ix3 0 0 k)) (x1 (ix1 k)) := by
  rw [val_main_v16_apply, val_main_v10_apply, val_main_v9_apply, val_main_v15_apply, val_main_v14_apply,
    val_main_v13_apply, val_main_v12_apply, val_main_v11_apply, val_main_cst_0_apply]
  have e0 : idx_main_v9 (ix3 b t k) = ix3 0 0 k :=
    funext fun a => Fin.ext (by match a with | ⟨0, _⟩ => rfl | ⟨1, _⟩ => rfl | ⟨2, _⟩ => rfl)
  have e6 : idx_main_v15 (ix3 b t k) = ix3 0 0 k :=
    funext fun a => Fin.ext (by match a with | ⟨0, _⟩ => rfl | ⟨1, _⟩ => rfl | ⟨2, _⟩ => rfl)
  have e4 : idx_main_v13 (ix3 (0 : Fin 1) (0 : Fin 1) k) = ix1 k :=
    funext fun a => Fin.ext (by match a with | ⟨0, _⟩ => rfl)
  rw [e0, e6, e4]
  simp only [Ideal.addf_def, Ideal.mulf_def, Ideal.subf_def, Ideal.ofBits_def, Ideal.hostDivf_def,
    Ideal.hostUnary_exp_def, Ideal.hostNegf_def, Ideal.negf_def]
  rfl

/-- The token interpolated for the receptance, entry `k` of token `(b, t)`. -/
theorem mixR_at (x0 : CX) (x1 : C1) (x8 : C3) (b : Fin 4) (t : Fin 4096) (k : Fin 1024) :
    val_main_v25 (F := Ideal) x0 x1 x8 (ix3 b t k)
      = Cert.TimeMix.lerp (x0 (ix3 b t k)) (x8 (ix3 0 0 k)) (x1 (ix1 k)) := by
  rw [val_main_v25_apply, val_main_v19_apply, val_main_v18_apply, val_main_v24_apply, val_main_v23_apply,
    val_main_v22_apply, val_main_v21_apply, val_main_v20_apply, val_main_cst_1_apply]
  have e0 : idx_main_v18 (ix3 b t k) = ix3 0 0 k :=
    funext fun a => Fin.ext (by match a with | ⟨0, _⟩ => rfl | ⟨1, _⟩ => rfl | ⟨2, _⟩ => rfl)
  have e6 : idx_main_v24 (ix3 b t k) = ix3 0 0 k :=
    funext fun a => Fin.ext (by match a with | ⟨0, _⟩ => rfl | ⟨1, _⟩ => rfl | ⟨2, _⟩ => rfl)
  have e4 : idx_main_v22 (ix3 (0 : Fin 1) (0 : Fin 1) k) = ix1 k :=
    funext fun a => Fin.ext (by match a with | ⟨0, _⟩ => rfl)
  rw [e0, e6, e4]
  simp only [Ideal.addf_def, Ideal.mulf_def, Ideal.subf_def, Ideal.ofBits_def, Ideal.hostDivf_def,
    Ideal.hostUnary_exp_def, Ideal.hostNegf_def, Ideal.negf_def]
  rfl

/-- The key, entry `e` of token `(b, t)`: the interpolated token against row `e` of the key matrix. -/
theorem key_at (x0 : CX) (x1 : C1) (x6 : C3) (x9 : CW) (b : Fin 4) (t : Fin 4096) (e : Fin 1024) :
    val_main_v8 (F := Ideal) x0 x1 x6 x9 (ix3 b t e)
      = Cert.TimeMix.proj (fun d => Cert.TimeMix.lerp (x0 (ix3 b t d)) (x6 (ix3 0 0 d)) (x1 (ix1 d)))
          (fun e d => x9 (ix2 e d)) e := by
  rw [val_main_v8_apply]
  unfold Cert.TimeMix.proj
  refine Finset.sum_congr rfl fun k _ => ?_
  have el : lidx_main_v8 (ix3 b t e) k = ix3 b t k :=
    funext fun a => Fin.ext (by match a with | ⟨0, _⟩ => rfl | ⟨1, _⟩ => rfl | ⟨2, _⟩ => rfl)
  have er : ridx_main_v8 (ix3 b t e) k = ix2 e k :=
    funext fun a => Fin.ext (by match a with | ⟨0, _⟩ => rfl | ⟨1, _⟩ => rfl)
  rw [el, er, mixK_at]

/-- The value, entry `e` of token `(b, t)`. -/
theorem value_at (x0 : CX) (x1 : C1) (x7 : C3) (x10 : CW) (b : Fin 4) (t : Fin 4096) (e : Fin 1024) :
    val_main_v17 (F := Ideal) x0 x1 x7 x10 (ix3 b t e)
      = Cert.TimeMix.proj (fun d => Cert.TimeMix.lerp (x0 (ix3 b t d)) (x7 (ix3 0 0 d)) (x1 (ix1 d)))
          (fun e d => x10 (ix2 e d)) e := by
  rw [val_main_v17_apply]
  unfold Cert.TimeMix.proj
  refine Finset.sum_congr rfl fun k _ => ?_
  have el : lidx_main_v17 (ix3 b t e) k = ix3 b t k :=
    funext fun a => Fin.ext (by match a with | ⟨0, _⟩ => rfl | ⟨1, _⟩ => rfl | ⟨2, _⟩ => rfl)
  have er : ridx_main_v17 (ix3 b t e) k = ix2 e k :=
    funext fun a => Fin.ext (by match a with | ⟨0, _⟩ => rfl | ⟨1, _⟩ => rfl)
  rw [el, er, mixV_at]

/-- The receptance, entry `e` of token `(b, t)`. -/
theorem recept_at (x0 : CX) (x1 : C1) (x8 : C3) (x11 : CW) (b : Fin 4) (t : Fin 4096) (e : Fin 1024) :
    val_main_v26 (F := Ideal) x0 x1 x8 x11 (ix3 b t e)
      = Cert.TimeMix.proj (fun d => Cert.TimeMix.lerp (x0 (ix3 b t d)) (x8 (ix3 0 0 d)) (x1 (ix1 d)))
          (fun e d => x11 (ix2 e d)) e := by
  rw [val_main_v26_apply]
  unfold Cert.TimeMix.proj
  refine Finset.sum_congr rfl fun k _ => ?_
  have el : lidx_main_v26 (ix3 b t e) k = ix3 b t k :=
    funext fun a => Fin.ext (by match a with | ⟨0, _⟩ => rfl | ⟨1, _⟩ => rfl | ⟨2, _⟩ => rfl)
  have er : ridx_main_v26 (ix3 b t e) k = ix2 e k :=
    funext fun a => Fin.ext (by match a with | ⟨0, _⟩ => rfl | ⟨1, _⟩ => rfl)
  rw [el, er, mixR_at]

/-- The bonus row, repeated over the tokens, read at entry `e`. -/
theorem tf_at (x5 : C1) (b : Fin 4) (t : Fin 4096) (e : Fin 1024) :
    val_main_v28 (F := Ideal) x5 (ix3 b t e) = x5 (ix1 e) := by
  rw [val_main_v28_apply, val_main_v27_apply]
  exact congrArg x5 (funext fun a => Fin.ext (by match a with | ⟨0, _⟩ => rfl))

/-- The carried numerator, repeated over the tokens, read at entry `e`. -/
theorem ln_at (x2 : C1) (b : Fin 4) (t : Fin 4096) (e : Fin 1024) :
    val_main_v33 (F := Ideal) x2 (ix3 b t e) = x2 (ix1 e) := by
  rw [val_main_v33_apply, val_main_v32_apply]
  exact congrArg x2 (funext fun a => Fin.ext (by match a with | ⟨0, _⟩ => rfl))

/-- The carried denominator, repeated over the tokens, read at entry `e`. -/
theorem ld_at (x3 : C1) (b : Fin 4) (t : Fin 4096) (e : Fin 1024) :
    val_main_v36 (F := Ideal) x3 (ix3 b t e) = x3 (ix1 e) := by
  rw [val_main_v36_apply, val_main_v35_apply]
  exact congrArg x3 (funext fun a => Fin.ext (by match a with | ⟨0, _⟩ => rfl))

/-- The decayed carried numerator, repeated over the tokens, read at entry `e`. -/
theorem decay_ln_at (x2 x4 : C1) (b : Fin 4) (t : Fin 4096) (e : Fin 1024) :
    val_main_v53 (F := Ideal) x2 x4 (ix3 b t e) = Ideal.exp (-(Ideal.exp (x4 (ix1 e)))) * x2 (ix1 e) := by
  rw [val_main_v53_apply, val_main_v52_apply]
  have e1 : idx_main_v52 (idx_main_v53 (ix3 b t e)) = ix1 e :=
    funext fun a => Fin.ext (by match a with | ⟨0, _⟩ => rfl)
  rw [e1, val_main_v50_apply, val_main_v48_apply, val_main_v47_apply, val_main_v46_apply]
  simp only [Ideal.addf_def, Ideal.mulf_def, Ideal.subf_def, Ideal.ofBits_def, Ideal.hostDivf_def,
    Ideal.hostUnary_exp_def, Ideal.hostNegf_def, Ideal.negf_def]

/-- The decayed carried denominator, repeated over the tokens, read at entry `e`. -/
theorem decay_ld_at (x3 x4 : C1) (b : Fin 4) (t : Fin 4096) (e : Fin 1024) :
    val_main_v57 (F := Ideal) x3 x4 (ix3 b t e) = Ideal.exp (-(Ideal.exp (x4 (ix1 e)))) * x3 (ix1 e) := by
  rw [val_main_v57_apply, val_main_v56_apply]
  have e1 : idx_main_v56 (idx_main_v57 (ix3 b t e)) = ix1 e :=
    funext fun a => Fin.ext (by match a with | ⟨0, _⟩ => rfl)
  rw [e1, val_main_v55_apply, val_main_v48_apply, val_main_v47_apply, val_main_v46_apply]
  simp only [Ideal.addf_def, Ideal.mulf_def, Ideal.subf_def, Ideal.ofBits_def, Ideal.hostDivf_def,
    Ideal.hostUnary_exp_def, Ideal.hostNegf_def, Ideal.negf_def]

/-! ## The parameters the arrays hold, and the stages as functions of them -/

/-- the argument arrays read as the token's parameters -/
def params (x1 x2 x3 x4 x5 : C1) (x6 x7 x8 : C3) (x9 x10 x11 x12 : CW) : Cert.TimeMix.Params where
  lx d := x1 (ix1 d)
  ln d := x2 (ix1 d)
  ld d := x3 (ix1 d)
  td d := x4 (ix1 d)
  tf d := x5 (ix1 d)
  mixK d := x6 (ix3 0 0 d)
  mixV d := x7 (ix3 0 0 d)
  mixR d := x8 (ix3 0 0 d)
  Wk e d := x9 (ix2 e d)
  Wv e d := x10 (ix2 e d)
  Wr e d := x11 (ix2 e d)
  Wo e d := x12 (ix2 e d)

/-- token (b, t) of x -/
def row (x0 : CX) (b : Fin 4) (t : Fin 4096) : Fin 1024 → EReal := fun d => x0 (ix3 b t d)

/-- The key stage is the key of the token. -/
theorem key_eq (x0 : CX) (x1 x2 x3 x4 x5 : C1) (x6 x7 x8 : C3) (x9 x10 x11 x12 : CW)
    (b : Fin 4) (t : Fin 4096) (e : Fin 1024) :
    val_main_v8 (F := Ideal) x0 x1 x6 x9 (ix3 b t e)
      = Cert.TimeMix.key (params x1 x2 x3 x4 x5 x6 x7 x8 x9 x10 x11 x12) (row x0 b t) e :=
  key_at x0 x1 x6 x9 b t e

/-- The value stage is the value of the token. -/
theorem value_eq (x0 : CX) (x1 x2 x3 x4 x5 : C1) (x6 x7 x8 : C3) (x9 x10 x11 x12 : CW)
    (b : Fin 4) (t : Fin 4096) (e : Fin 1024) :
    val_main_v17 (F := Ideal) x0 x1 x7 x10 (ix3 b t e)
      = Cert.TimeMix.value (params x1 x2 x3 x4 x5 x6 x7 x8 x9 x10 x11 x12) (row x0 b t) e :=
  value_at x0 x1 x7 x10 b t e

/-- The receptance stage is the receptance of the token. -/
theorem recept_eq (x0 : CX) (x1 x2 x3 x4 x5 : C1) (x6 x7 x8 : C3) (x9 x10 x11 x12 : CW)
    (b : Fin 4) (t : Fin 4096) (e : Fin 1024) :
    val_main_v26 (F := Ideal) x0 x1 x8 x11 (ix3 b t e)
      = Cert.TimeMix.recept (params x1 x2 x3 x4 x5 x6 x7 x8 x9 x10 x11 x12) (row x0 b t) e :=
  recept_at x0 x1 x8 x11 b t e

/-- The quotient stage is the WKV quotient of the token. -/
theorem wkv_at (x0 : CX) (x1 x2 x3 x4 x5 : C1) (x6 x7 x8 : C3) (x9 x10 x11 x12 : CW)
    (b : Fin 4) (t : Fin 4096) (e : Fin 1024) :
    val_main_v38 (F := Ideal) x0 x1 x2 x3 x5 x6 x7 x9 x10 (ix3 b t e)
      = Cert.TimeMix.wkv (params x1 x2 x3 x4 x5 x6 x7 x8 x9 x10 x11 x12) (row x0 b t) e := by
  rw [val_main_v38_apply, val_main_v34_apply, val_main_v37_apply, val_main_v31_apply, val_main_v30_apply,
    val_main_v29_apply, ln_at, ld_at, tf_at, key_eq x0 x1 x2 x3 x4 x5 x6 x7 x8 x9 x10 x11 x12 b t e, value_eq x0 x1 x2 x3 x4 x5 x6 x7 x8 x9 x10 x11 x12 b t e]
  simp only [Ideal.addf_def, Ideal.mulf_def, Ideal.subf_def, Ideal.ofBits_def, Ideal.hostDivf_def,
    Ideal.hostUnary_exp_def, Ideal.hostNegf_def, Ideal.negf_def]
  rfl

/-- The gated stage is the gated quotient of the token: the spelt-out sigmoid of the receptance times the quotient. -/
theorem gated_at (x0 : CX) (x1 x2 x3 x4 x5 : C1) (x6 x7 x8 : C3) (x9 x10 x11 x12 : CW)
    (b : Fin 4) (t : Fin 4096) (e : Fin 1024) :
    val_main_v45 (F := Ideal) x0 x1 x2 x3 x5 x6 x7 x8 x9 x10 x11 (ix3 b t e)
      = Cert.TimeMix.gated (params x1 x2 x3 x4 x5 x6 x7 x8 x9 x10 x11 x12) (row x0 b t) e := by
  rw [val_main_v45_apply, val_main_v44_apply, val_main_v43_apply, val_main_cst_3_apply, val_main_v42_apply,
    val_main_v41_apply, val_main_cst_2_apply, val_main_v40_apply, val_main_v39_apply,
    recept_eq x0 x1 x2 x3 x4 x5 x6 x7 x8 x9 x10 x11 x12 b t e, wkv_at x0 x1 x2 x3 x4 x5 x6 x7 x8 x9 x10 x11 x12 b t e]
  simp only [Ideal.addf_def, Ideal.mulf_def, Ideal.subf_def, Ideal.ofBits_def, Ideal.hostDivf_def,
    Ideal.hostUnary_exp_def, Ideal.hostNegf_def, Ideal.negf_def]
  rw [Cert.TimeMix.logistic_spelt]
  rfl

/-- The output stage is the output of the token: the gated row against row `e` of the output matrix. -/
theorem out_at (x0 : CX) (x1 x2 x3 x4 x5 : C1) (x6 x7 x8 : C3) (x9 x10 x11 x12 : CW)
    (b : Fin 4) (t : Fin 4096) (e : Fin 1024) :
    val_main_v59 (F := Ideal) x0 x1 x2 x3 x5 x6 x7 x8 x9 x10 x11 x12 (ix3 b t e)
      = Cert.TimeMix.out (params x1 x2 x3 x4 x5 x6 x7 x8 x9 x10 x11 x12) (row x0 b t) e := by
  rw [val_main_v59_apply]
  unfold Cert.TimeMix.out Cert.TimeMix.proj
  refine Finset.sum_congr rfl fun k _ => ?_
  have el : lidx_main_v59 (ix3 b t e) k = ix3 b t k :=
    funext fun a => Fin.ext (by match a with | ⟨0, _⟩ => rfl | ⟨1, _⟩ => rfl | ⟨2, _⟩ => rfl)
  have er : ridx_main_v59 (ix3 b t e) k = ix2 e k :=
    funext fun a => Fin.ext (by match a with | ⟨0, _⟩ => rfl | ⟨1, _⟩ => rfl)
  rw [el, er, gated_at x0 x1 x2 x3 x4 x5 x6 x7 x8 x9 x10 x11 x12 b t k]
  rfl

/-- The numerator stage is the updated numerator of the token. -/
theorem num_at (x0 : CX) (x1 x2 x3 x4 x5 : C1) (x6 x7 x8 : C3) (x9 x10 x11 x12 : CW)
    (b : Fin 4) (t : Fin 4096) (e : Fin 1024) :
    val_main_v54 (F := Ideal) x0 x1 x2 x4 x6 x7 x9 x10 (ix3 b t e)
      = Cert.TimeMix.num (params x1 x2 x3 x4 x5 x6 x7 x8 x9 x10 x11 x12) (row x0 b t) e := by
  rw [val_main_v54_apply, val_main_v51_apply, val_main_v49_apply, decay_ln_at, key_eq x0 x1 x2 x3 x4 x5 x6 x7 x8 x9 x10 x11 x12 b t e,
    value_eq x0 x1 x2 x3 x4 x5 x6 x7 x8 x9 x10 x11 x12 b t e]
  simp only [Ideal.addf_def, Ideal.mulf_def, Ideal.subf_def, Ideal.ofBits_def, Ideal.hostDivf_def,
    Ideal.hostUnary_exp_def, Ideal.hostNegf_def, Ideal.negf_def]
  rfl

/-- The denominator stage is the updated denominator of the token. -/
theorem den_at (x0 : CX) (x1 x2 x3 x4 x5 : C1) (x6 x7 x8 : C3) (x9 x10 x11 x12 : CW)
    (b : Fin 4) (t : Fin 4096) (e : Fin 1024) :
    val_main_v58 (F := Ideal) x0 x1 x3 x4 x6 x9 (ix3 b t e)
      = Cert.TimeMix.den (params x1 x2 x3 x4 x5 x6 x7 x8 x9 x10 x11 x12) (row x0 b t) e := by
  rw [val_main_v58_apply, val_main_v49_apply, decay_ld_at, key_eq x0 x1 x2 x3 x4 x5 x6 x7 x8 x9 x10 x11 x12 b t e]
  simp only [Ideal.addf_def, Ideal.mulf_def, Ideal.subf_def, Ideal.ofBits_def, Ideal.hostDivf_def,
    Ideal.hostUnary_exp_def, Ideal.hostNegf_def, Ideal.negf_def]
  rfl

/-! ## The last token: a slice at `t = 4095` flattened to 4 × 1024 -/

/-- Entry `(b, e)` of the flattened slice is entry `(b, 4095, e)` of the sliced array: `(1024 b + e) / 1024 = b` and
    `(1024 b + e) % 1024 = e`. -/
theorem last_idx_x (b : Fin 4) (e : Fin 1024) :
    idx_main_v60 (idx_main_v61 (ix2 b e)) = ix3 b (4095 : Fin 4096) e := by
  have hb : b.val < 4 := b.isLt
  have he : e.val < 1024 := e.isLt
  funext a
  refine Fin.ext ?_
  match a with
  | ⟨0, _⟩ => show (b.val * 1024 + e.val) / 1024 = b.val; omega
  | ⟨1, _⟩ => rfl
  | ⟨2, _⟩ => show (b.val * 1024 + e.val) % 1024 = e.val; omega

/-- Entry `(b, e)` of the flattened slice is entry `(b, 4095, e)` of the sliced array: `(1024 b + e) / 1024 = b` and
    `(1024 b + e) % 1024 = e`. -/
theorem last_idx_num (b : Fin 4) (e : Fin 1024) :
    idx_main_v62 (idx_main_v63 (ix2 b e)) = ix3 b (4095 : Fin 4096) e := by
  have hb : b.val < 4 := b.isLt
  have he : e.val < 1024 := e.isLt
  funext a
  refine Fin.ext ?_
  match a with
  | ⟨0, _⟩ => show (b.val * 1024 + e.val) / 1024 = b.val; omega
  | ⟨1, _⟩ => rfl
  | ⟨2, _⟩ => show (b.val * 1024 + e.val) % 1024 = e.val; omega

/-- Entry `(b, e)` of the flattened slice is entry `(b, 4095, e)` of the sliced array: `(1024 b + e) / 1024 = b` and
    `(1024 b + e) % 1024 = e`. -/
theorem last_idx_den (b : Fin 4) (e : Fin 1024) :
    idx_main_v64 (idx_main_v65 (ix2 b e)) = ix3 b (4095 : Fin 4096) e := by
  have hb : b.val < 4 := b.isLt
  have he : e.val < 1024 := e.isLt
  funext a
  refine Fin.ext ?_
  match a with
  | ⟨0, _⟩ => show (b.val * 1024 + e.val) / 1024 = b.val; omega
  | ⟨1, _⟩ => rfl
  | ⟨2, _⟩ => show (b.val * 1024 + e.val) % 1024 = e.val; omega

/-! ## The four results -/

/-- The first result: every token's output. -/
theorem out_eq (x0 : CX) (x1 x2 x3 x4 x5 : C1) (x6 x7 x8 : C3) (x9 x10 x11 x12 : CW) :
    val_main_v59 (F := Ideal) x0 x1 x2 x3 x5 x6 x7 x8 x9 x10 x11 x12
      = fun i => Cert.TimeMix.out (params x1 x2 x3 x4 x5 x6 x7 x8 x9 x10 x11 x12) (row x0 (i 0) (i 1)) (i 2) := by
  funext i
  obtain ⟨b, t, e, rfl⟩ : ∃ (b : Fin 4) (t : Fin 4096) (e : Fin 1024), i = ix3 b t e := ⟨i 0, i 1, i 2, eq_ix3 i⟩
  exact out_at x0 x1 x2 x3 x4 x5 x6 x7 x8 x9 x10 x11 x12 b t e

/-- The second result: the last token of the input. -/
theorem xlast_eq (x0 : CX) : val_main_v61 (F := Ideal) x0 = fun i => x0 (ix3 (i 0) (4095 : Fin 4096) (i 1)) := by
  funext i
  obtain ⟨b, e, rfl⟩ : ∃ (b : Fin 4) (e : Fin 1024), i = ix2 b e := ⟨i 0, i 1, eq_ix2 i⟩
  rw [val_main_v61_apply, val_main_v60_apply]
  exact congrArg x0 (last_idx_x b e)

/-- The third result: the last token's updated numerator. -/
theorem numlast_eq (x0 : CX) (x1 x2 x3 x4 x5 : C1) (x6 x7 x8 : C3) (x9 x10 x11 x12 : CW) :
    val_main_v63 (F := Ideal) x0 x1 x2 x4 x6 x7 x9 x10
      = fun i => Cert.TimeMix.num (params x1 x2 x3 x4 x5 x6 x7 x8 x9 x10 x11 x12) (row x0 (i 0) (4095 : Fin 4096)) (i 1) := by
  funext i
  obtain ⟨b, e, rfl⟩ : ∃ (b : Fin 4) (e : Fin 1024), i = ix2 b e := ⟨i 0, i 1, eq_ix2 i⟩
  rw [val_main_v63_apply, val_main_v62_apply, last_idx_num b e]
  exact num_at x0 x1 x2 x3 x4 x5 x6 x7 x8 x9 x10 x11 x12 b (4095 : Fin 4096) e

/-- The fourth result: the last token's updated denominator. -/
theorem denlast_eq (x0 : CX) (x1 x2 x3 x4 x5 : C1) (x6 x7 x8 : C3) (x9 x10 x11 x12 : CW) :
    val_main_v65 (F := Ideal) x0 x1 x3 x4 x6 x9
      = fun i => Cert.TimeMix.den (params x1 x2 x3 x4 x5 x6 x7 x8 x9 x10 x11 x12) (row x0 (i 0) (4095 : Fin 4096)) (i 1) := by
  funext i
  obtain ⟨b, e, rfl⟩ : ∃ (b : Fin 4) (e : Fin 1024), i = ix2 b e := ⟨i 0, i 1, eq_ix2 i⟩
  rw [val_main_v65_apply, val_main_v64_apply, last_idx_den b e]
  exact den_at x0 x1 x2 x3 x4 x5 x6 x7 x8 x9 x10 x11 x12 b (4095 : Fin 4096) e

end Cert.TimeMix.Ref

end
-- ==== Proof.lean ====
/-
  RWKV time-mixing on a block-tiled grid against its plain formulation, over the extended reals.

  Both programs compute, for every token `(b, s)` of a [4, 4096, 1024] array, three interpolations with a carried
  row, their projections by three 1024 × 1024 matrices (key, value, receptance), the quotient
  `(ln + e^(tf + k)·v) / (ld + e^(tf + k))` gated by the sigmoid of the receptance, and its projection by a fourth
  matrix; and, for the last token of each batch, the token itself and the updated numerator and denominator
  `e^(−e^td)·ln + e^k·v`, `e^(−e^td)·ld + e^k`. The kernel works on 64 blocks of 256 tokens with the matrices stored
  transposed and narrowed (no change of value here), spells the sigmoid as one operation and the negation as
  `0 − ·`; the reference spells the sigmoid as `1 / (1 + e^(−r))` and negates. The laws that join them: the sigmoid is
  that quotient by definition, `0 − y = −y`, and a product row against a stored transposed column is the sum the
  reference's contraction takes. None needs the inputs to be finite.

  `Cert.TimeMix` (TimeMixSpec) states one token's results as functions of coordinates; RefRows reads the reference's
  four results as those functions of the argument arrays, KernelBlock one grid point of the kernel, KernelReads the
  blocks in terms of the arrays, KernelFinal the kernel's four results. Here the runs are put side by side.
-/
import proofs.«153176_j738734375125_1_alg».proof.Defs
import proofs.«153176_j738734375125_1_alg».proof.Proof.Gen.Kernel
import proofs.«153176_j738734375125_1_alg».proof.Proof.Gen.Kernel.Frame
import proofs.«153176_j738734375125_1_alg».proof.Proof.Gen.KernelIdeal
import proofs.«153176_j738734375125_1_alg».proof.Proof.Gen.KernelIdeal.Frame
import proofs.«153176_j738734375125_1_alg».proof.Proof.Gen.ReferenceIdeal
import proofs.«153176_j738734375125_1_alg».proof.Proof.Gen.ReferenceIdeal.Run
import proofs.«153176_j738734375125_1_alg».proof.Proof.Gen.ReferenceIdeal.Read
import proofs.«153176_j738734375125_1_alg».proof.Proof.Gen.Pre_finite_inputs
import proofs.«153176_j738734375125_1_alg».proof.Proof.KernelFinal
import proofs.«153176_j738734375125_1_alg».proof.Proof.RefRows
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The idealization rewrote nothing. -/
theorem preserves : Cert.preserves_Kernel_KernelIdeal := trivial

/-- From agreeing arguments both programs end with, entry by entry, the same output, carried token, numerator and
    denominator: each side's results are one token's functions of the same arrays. -/
theorem algebraic : Cert.algebraic_KernelIdeal_ReferenceIdeal := by
  intro m ρ m' ρ' _ hagree
  refine ⟨fun c => Cert.TimeMix.Krn.outArr m c, fun c => Cert.TimeMix.Krn.xlastArr m c, fun c => Cert.TimeMix.Krn.numArr m c,
    fun c => Cert.TimeMix.Krn.denArr m c, Cert.TimeMix.Krn.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12⟩ := hagree c
  obtain ⟨h59, h61, h63, h65, hargs⟩ := h c
  refine ⟨h59.trans ?_, h61.trans ?_, h63.trans ?_, h65.trans ?_, hargs⟩
  · rw [Cert.ReferenceIdeal.Read.val_main_v59_eq,
      Cert.TimeMix.Ref.out_eq (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12)),
      a0, a1, a2, a3, a4, a5, a6, a7, a8, a9, a10, a11, a12]
    rfl
  · rw [Cert.ReferenceIdeal.Read.val_main_v61_eq, Cert.TimeMix.Ref.xlast_eq (m' ((c.tc : Thread Cert.ReferenceIdeal.nD Cert.ReferenceIdeal.τ).loc Cert.ReferenceIdeal.main_arg0)), a0]
    rfl
  · rw [Cert.ReferenceIdeal.Read.val_main_v63_eq,
      Cert.TimeMix.Ref.numlast_eq (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12)),
      a0, a1, a2, a3, a4, a5, a6, a7, a8, a9, a10, a11, a12]
    rfl
  · rw [Cert.ReferenceIdeal.Read.val_main_v65_eq,
      Cert.TimeMix.Ref.denlast_eq (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12)),
      a0, a1, a2, a3, a4, a5, a6, a7, a8, a9, a10, a11, a12]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
